-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S1x1024x256 : Shape := ⟨3, ![1, 1024, 256]⟩
abbrev S768x100000 : Shape := ⟨2, ![768, 100000]⟩
abbrev S768x256 : Shape := ⟨2, ![768, 256]⟩
abbrev S768 : Shape := ⟨1, ![768]⟩
abbrev S100000x256 : Shape := ⟨2, ![100000, 256]⟩
abbrev S100000 : Shape := ⟨1, ![100000]⟩
abbrev S_ : Shape := ⟨0, ![]⟩

class Facts : Prop where
  bcast_S_S1x1024x256 : S_.BroadcastsInDim S1x1024x256 (![] : Fin 0 → Fin S1x1024x256.rank)
  reducesTo_S1x1024x256_S_d0_1_2 : S1x1024x256.ReducesTo [0, 1, 2] S_
  h_S_ : 0 < S_.numel
  bcast_S_S768x100000 : S_.BroadcastsInDim S768x100000 (![] : Fin 0 → Fin S768x100000.rank)
  reducesTo_S768x100000_S_d0_1 : S768x100000.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S100000x256 : S_.BroadcastsInDim S100000x256 (![] : Fin 0 → Fin S100000x256.rank)
  reducesTo_S100000x256_S_d0_1 : S100000x256.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg5 : FVec F S768 .f32) (main_arg6 : FVec F S100000x256 .f32) (main_arg7 : FVec F S100000 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S100000x256 .f32 := Host.absf main_arg6
  let main_cst_8 : FVec F S_ .f32 := constant S_ .f32 0x7F800000#32
  let main_v25 : FVec F S100000x256 .f32 := broadcastInDim S100000x256 ![] bcast_S_S100000x256 main_cst_8
  let main_v26 : IVec S100000x256 1 := cmpf .olt main_v24 main_v25
  let main_c_9 : IVec S_ 1 := constantI S_ 1 1#1
  let main_v27 : IVec S_ 1 := (fun x v => Host.reduce IntOp.andi x v reducesTo_S100000x256_S_d0_1 h_S_) main_v26 main_c_9
  let main_v28 : IVec S_ 1 := andi main_v23 main_v27
  let main_v29 : FVec F S100000 .f32 := Host.absf main_arg7
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  main_v33

def fn {F : FTy → Type} [FloatOps F] (main_arg0 : IVec S1024 32) (main_arg1 : FVec F S1x1024x256 .f32) (main_arg2 : FVec F S768x100000 .f32) (main_arg3 : FVec F S768x256 .f32) (main_arg4 : FVec F S768 .f32) (main_arg5 : FVec F S768 .f32) (main_arg6 : FVec F S100000x256 .f32) (main_arg7 : FVec F S100000 .f32) : IVec S_ 1 :=
  let main_v0 : FVec F S1x1024x256 .f32 := Host.absf main_arg1
  let main_cst : FVec F S_ .f32 := constant S_ .f32 0x7F800000#32
  let main_v1 : FVec F S1x1024x256 .f32 := broadcastInDim S1x1024x256 ![] bcast_S_S1x1024x256 main_cst
  let main_v2 : IVec S1x1024x256 1 := cmpf .olt main_v0 main_v1
  let main_c : IVec S_ 1 := constantI S_ 1 1#1
  let main_v3 : IVec S_ 1 := (fun x v => Host.reduce IntOp.andi x v reducesTo_S1x1024x256_S_d0_1_2 h_S_) main_v2 main_c
  let main_v4 : FVec F S768x100000 .f32 := Host.absf main_arg2
  let main_cst_0 : FVec F S_ .f32 := constant S_ .f32 0x7F800000#32
  let main_v5 : FVec F S768x100000 .f32 := broadcastInDim S768x100000 ![] bcast_S_S768x100000 main_cst_0
  let main_v6 : IVec S768x100000 1 := cmpf .olt main_v4 main_v5
  let main_c_1 : IVec S_ 1 := constantI S_ 1 1#1
  let main_v7 : IVec S_ 1 := (fun x v => Host.reduce IntOp.andi x v reducesTo_S768x100000_S_d0_1 h_S_) main_v6 main_c_1
  let main_v8 : IVec S_ 1 := andi main_v3 main_v7
  let main_v9 : FVec F S768x256 .f32 := Host.absf main_arg3
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg5 main_arg6 main_arg7 main_v13 main_v16
-- ==== Kernel.lean ====
abbrev S1024 : Shape := ⟨1, ![1024]⟩
abbrev S1x1024x256 : Shape := ⟨3, ![1, 1024, 256]⟩
abbrev S768x100000 : Shape := ⟨2, ![768, 100000]⟩
abbrev S768x256 : Shape := ⟨2, ![768, 256]⟩
abbrev S768 : Shape := ⟨1, ![768]⟩
abbrev S100000x256 : Shape := ⟨2, ![100000, 256]⟩
abbrev S100000 : Shape := ⟨1, ![100000]⟩
abbrev S1024x256 : Shape := ⟨2, ![1024, 256]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S768x1024 : Shape := ⟨2, ![768, 1024]⟩
abbrev S1024x768 : Shape := ⟨2, ![1024, 768]⟩
abbrev S1x768 : Shape := ⟨2, ![1, 768]⟩
abbrev S256x768 : Shape := ⟨2, ![256, 768]⟩
abbrev S1x100000 : Shape := ⟨2, ![1, 100000]⟩
abbrev S1024x100000 : Shape := ⟨2, ![1024, 100000]⟩
abbrev S4224x256 : Shape := ⟨2, ![4224, 256]⟩
abbrev S1x4224 : Shape := ⟨2, ![1, 4224]⟩
abbrev S1024x4224 : Shape := ⟨2, ![1024, 4224]⟩

abbrev nBuf : Space → Nat
  | .hbm => 76
  | .vmem => 7
  | .smem => 0
  | _ => 0

abbrev bufTy : (tb : Table) → Fin (tcTables nBuf tb) → BufTy
  | .hbm, ⟨0, _⟩ => ⟨S1024, .i32⟩
  | .hbm, ⟨1, _⟩ => ⟨S1x1024x256, .f32⟩
  | .hbm, ⟨2, _⟩ => ⟨S768x100000, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S100000x256, .f32⟩
  | .hbm, ⟨7, _⟩ => ⟨S100000, .f32⟩
  | .hbm, ⟨8, _⟩ => ⟨S1024x256, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1, .i32⟩
  | .hbm, ⟨18, _⟩ => ⟨S_, .i32⟩
  | .hbm, ⟨19, _⟩ => ⟨S1024x1, .i32⟩
  | .hbm, ⟨20, _⟩ => ⟨S1024x1, .i1⟩
  | .hbm, ⟨21, _⟩ => ⟨S1x1, .i32⟩
  | .hbm, ⟨22, _⟩ => ⟨S1024x1, .i32⟩
  | .hbm, ⟨23, _⟩ => ⟨S1024x1, .i1⟩
  | .hbm, ⟨24, _⟩ => ⟨S1024x1, .i1⟩
  | .hbm, ⟨25, _⟩ => ⟨S_, .i1⟩
  | .hbm, ⟨26, _⟩ => ⟨S1024, .i1⟩
  | .hbm, ⟨27, _⟩ => ⟨S768x1024, .f32⟩
  | .hbm, ⟨28, _⟩ => ⟨S768x1024, .i1⟩
  | .hbm, ⟨29, _⟩ => ⟨S_, .f32⟩
  | .hbm, ⟨30, _⟩ => ⟨S768x1024, .f32⟩
  | .hbm, ⟨31, _⟩ => ⟨S768x1024, .f32⟩
  | .hbm, ⟨32, _⟩ => ⟨S1024x768, .f32⟩
  | .hbm, ⟨33, _⟩ => ⟨S1x768, .f32⟩
  | .hbm, ⟨34, _⟩ => ⟨S1024x768, .f32⟩
  | .hbm, ⟨35, _⟩ => ⟨S1024x768, .f32⟩
  | .hbm, ⟨36, _⟩ => ⟨S256x768, .f32⟩
  | .hbm, ⟨37, _⟩ => ⟨S1024x768, .f32⟩
  | .hbm, ⟨38, _⟩ => ⟨S1x768, .f32⟩
  | .hbm, ⟨39, _⟩ => ⟨S1024x768, .f32⟩
  | .hbm, ⟨40, _⟩ => ⟨S1024x768, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S1024x256, .f32⟩
  | .hbm, ⟨48, _⟩ => ⟨S1024x256, .f32⟩
  | .hbm, ⟨49, _⟩ => ⟨S1024x256, .f32⟩
  | .hbm, ⟨50, _⟩ => ⟨S_, .f32⟩
  | .hbm, ⟨51, _⟩ => ⟨S1024x256, .f32⟩
  | .hbm, ⟨52, _⟩ => ⟨S1024x256, .f32⟩
  | .hbm, ⟨53, _⟩ => ⟨S_, .f32⟩
  | .hbm, ⟨54, _⟩ => ⟨S1024x256, .f32⟩
  | .hbm, ⟨55, _⟩ => ⟨S1024x256, .f32⟩
  | .hbm, ⟨56, _⟩ => ⟨S1024x256, .f32⟩
  | .hbm, ⟨57, _⟩ => ⟨S1024x256, .f32⟩
  | .hbm, ⟨58, _⟩ => ⟨S1024x256, .f32⟩
  | .hbm, ⟨59, _⟩ => ⟨S_, .f32⟩
  | .hbm, ⟨60, _⟩ => ⟨S1024x256, .f32⟩
  | .hbm, ⟨61, _⟩ => ⟨S1024x256, .f32⟩
  | .hbm, ⟨62, _⟩ => ⟨S_, .f32⟩
  | .hbm, ⟨63, _⟩ => ⟨S1024x256, .f32⟩
  | .hbm, ⟨64, _⟩ => ⟨S1024x256, .f32⟩
  | .hbm, ⟨65, _⟩ => ⟨S1024x256, .f32⟩
  | .hbm, ⟨66, _⟩ => ⟨S1024x256, .f32⟩
  | .hbm, ⟨67, _⟩ => ⟨S1024x256, .f32⟩
  | .hbm, ⟨68, _⟩ => ⟨S_, .f32⟩
  | .hbm, ⟨69, _⟩ => ⟨S1024x256, .f32⟩
  | .hbm, ⟨70, _⟩ => ⟨S1024x256, .f32⟩
  | .hbm, ⟨71, _⟩ => ⟨S1024x256, .f32⟩
  | .hbm, ⟨72, _⟩ => ⟨S1024x256, .f32⟩
  | .hbm, ⟨73, _⟩ => ⟨S1024x256, .f32⟩
  | .hbm, ⟨74, _⟩ => ⟨S1x100000, .f32⟩
  | .hbm, ⟨75, _⟩ => ⟨S1024x100000, .f32⟩
  | .local _ .vmem, ⟨0, _⟩ => ⟨S1024x256, .f32⟩
  | .local _ .vmem, ⟨1, _⟩ => ⟨S4224x256, .f32⟩
  | .local _ .vmem, ⟨2, _⟩ => ⟨S4224x256, .f32⟩
  | .local _ .vmem, ⟨3, _⟩ => ⟨S1x4224, .f32⟩
  | .local _ .vmem, ⟨4, _⟩ => ⟨S1x4224, .f32⟩
  | .local _ .vmem, ⟨5, _⟩ => ⟨S1024x4224, .f32⟩
  | .local _ .vmem, ⟨6, _⟩ => ⟨S1024x4224, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst : Ref sig .tc := ⟨.hbm, 50, rfl⟩
abbrev main_v20 : Ref sig .tc := ⟨.hbm, 51, rfl⟩
abbrev main_v21 : Ref sig .tc := ⟨.hbm, 52, rfl⟩
abbrev main_cst_0 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_1 : Ref sig .tc := ⟨.hbm, 59, rfl⟩
abbrev main_v27 : Ref sig .tc := ⟨.hbm, 60, rfl⟩
abbrev main_v28 : Ref sig .tc := ⟨.hbm, 61, rfl⟩
abbrev main_cst_2 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_3 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4224x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x1024x256_S1024x256 : S1x1024x256.ShapeCasts S1024x256
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S768x1024_1 : S1024.BroadcastsInDim S768x1024 (![1] : Fin 1 → Fin S768x1024.rank)
  bcast_S_S768x1024 : S_.BroadcastsInDim S768x1024 (![] : Fin 0 → Fin S768x1024.rank)
  transposes_S768x1024_S1024x768_1_0 : S768x1024.Transposes [1, 0] S1024x768
  bcast_S768_S1x768_1 : S768.BroadcastsInDim S1x768 (![1] : Fin 1 → Fin S1x768.rank)
  bcast_S1x768_S1024x768_0_1 : S1x768.BroadcastsInDim S1024x768 (![0, 1] : Fin 2 → Fin S1024x768.rank)
  transposes_S768x256_S256x768_1_0 : S768x256.Transposes [1, 0] S256x768
  slices_S1024x768_S1024x256_0_0 : S1024x768.Slices ![0, 0] S1024x256
  slices_S1024x768_S1024x256_0_256 : S1024x768.Slices ![0, 256] S1024x256
  slices_S1024x768_S1024x256_0_512 : S1024x768.Slices ![0, 512] S1024x256
  bcast_S_S1024x256 : S_.BroadcastsInDim S1024x256 (![] : Fin 0 → Fin S1024x256.rank)
  shapeCasts_S100000_S1x100000 : S100000.ShapeCasts S1x100000
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4224x256_S4224x256_0_0 : ∀ a, (![0, 0] : Fin 2 → Nat) a + S4224x256.size a ≤ S4224x256.size a
  h_S4224x256 : 0 < S4224x256.numel
  inb_S1x4224_S1x4224_0_0 : ∀ a, (![0, 0] : Fin 2 → Nat) a + S1x4224.size a ≤ S1x4224.size a
  h_S1x4224 : 0 < S1x4224.numel
  shapeCasts_S1x4224_S1x4224 : S1x4224.ShapeCasts S1x4224
  broadcasts_S1x4224_S1024x4224 : S1x4224.Broadcasts S1024x4224
  inb_S1024x4224_S1024x4224_0_0 : ∀ a, (![0, 0] : Fin 2 → Nat) a + S1024x4224.size a ≤ S1024x4224.size a
  h_S1024x4224 : 0 < S1024x4224.numel
  gather_S768x100000_S1024x1_S768x1024_0_1_n_n_1_1_7681_wf : GatherDims.WF S768x100000 S1024x1 S768x1024 [0] [1] [] [1] [] 1 ![768, 1]
  dot_S1024x256_S256x768_S1024x768_1_0_0_1_n_n_wf : DotDims.WF S1024x256 S256x768 S1024x768 [1] [0] [0] [1] [] []
  dot_S1024x256_S4224x256_S1024x4224_1_1_0_0_n_n_wf : DotDims.WF S1024x256 S4224x256 S1024x4224 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .f32 = 32 ∨ (Rect.block (s := S1024x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4224x256.size a < S100000x256.size a
  hwx0_1 : ∀ i : grid0.Coords, EltTy.bits .f32 = 32 ∨ (Rect.unit (s := S100000x256) (fun a => cc0_transform_1 i a * S4224x256.size a) (fun a => (Pipeline.Clip.of (cc0_transform_1 i a) (S4224x256.size a) (S100000x256.size a)).extent (S4224x256.size a)) fun a => Pipeline.Clip.inb (Pipeline.Clip.ok_of (hstart0_1 i a))).WholeWords (EltTy.packing .f32)
  hwxs0_1 : ∀ i : grid0.Coords, EltTy.bits .f32 = 32 ∨ (Rect.unit (s := S4224x256) (fun _ => 0) (fun a => (Pipeline.Clip.of (cc0_transform_1 i a) (S4224x256.size a) (S100000x256.size a)).extent (S4224x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x4224.size a < S1x100000.size a
  hwx0_2 : ∀ i : grid0.Coords, EltTy.bits .f32 = 32 ∨ (Rect.unit (s := S1x100000) (fun a => cc0_transform_2 i a * S1x4224.size a) (fun a => (Pipeline.Clip.of (cc0_transform_2 i a) (S1x4224.size a) (S1x100000.size a)).extent (S1x4224.size a)) fun a => Pipeline.Clip.inb (Pipeline.Clip.ok_of (hstart0_2 i a))).WholeWords (EltTy.packing .f32)
  hwxs0_2 : ∀ i : grid0.Coords, EltTy.bits .f32 = 32 ∨ (Rect.unit (s := S1x4224) (fun _ => 0) (fun a => (Pipeline.Clip.of (cc0_transform_2 i a) (S1x4224.size a) (S1x100000.size a)).extent (S1x4224.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x4224.size a < S1024x100000.size a
  hwx0_3 : ∀ i : grid0.Coords, EltTy.bits .f32 = 32 ∨ (Rect.unit (s := S1024x100000) (fun a => cc0_transform_3 i a * S1024x4224.size a) (fun a => (Pipeline.Clip.of (cc0_transform_3 i a) (S1024x4224.size a) (S1024x100000.size a)).extent (S1024x4224.size a)) fun a => Pipeline.Clip.inb (Pipeline.Clip.ok_of (hstart0_3 i a))).WholeWords (EltTy.packing .f32)
  hwxs0_3 : ∀ i : grid0.Coords, EltTy.bits .f32 = 32 ∨ (Rect.unit (s := S1024x4224) (fun _ => 0) (fun a => (Pipeline.Clip.of (cc0_transform_3 i a) (S1024x4224.size a) (S1024x100000.size a)).extent (S1024x4224.size a)) fun a => (Nat.zero_add _).trans_le (Pipeline.Clip.extent_le (Pipeline.Clip.ok_of (hstart0_3 i a)))).WholeWords (EltTy.packing .f32)

variable [Facts₀]

def gather_S768x100000_S1024x1_S768x1024_0_1_n_n_1_1_7681 : GatherDims S768x100000 S1024x1 S768x1024 where
  offsetDims := [0]
  collapsedSliceDims := [1]
  operandBatchingDims := []
  startIndicesBatchingDims := []
  startIndexMap := [1]
  indexVectorDim := 1
  sliceSizes := ![768, 1]
  wf := gather_S768x100000_S1024x1_S768x1024_0_1_n_n_1_1_7681_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S4224x256_S1024x4224_1_1_0_0_n_n : DotDims S1024x256 S4224x256 S1024x4224 where
  lhsContracting := [1]
  rhsContracting := [1]
  lhsNonContracting := [0]
  rhsNonContracting := [0]
  lhsBatch := []
  rhsBatch := []
  wf := dot_S1024x256_S4224x256_S1024x4224_1_1_0_0_n_n_wf

abbrev win0_0 : Pipeline.Window sig grid0 :=
  Pipeline.Window.ofSpec (Memref.whole main_v38) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg6) S4224x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v39) S1x4224.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v40) S1024x4224.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024 : Shape := ⟨1, ![1024]⟩
abbrev S1x1024x256 : Shape := ⟨3, ![1, 1024, 256]⟩
abbrev S768x100000 : Shape := ⟨2, ![768, 100000]⟩
abbrev S768x256 : Shape := ⟨2, ![768, 256]⟩
abbrev S768 : Shape := ⟨1, ![768]⟩
abbrev S100000x256 : Shape := ⟨2, ![100000, 256]⟩
abbrev S100000 : Shape := ⟨1, ![100000]⟩
abbrev S1024x256 : Shape := ⟨2, ![1024, 256]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S768x1024 : Shape := ⟨2, ![768, 1024]⟩
abbrev S1024x768 : Shape := ⟨2, ![1024, 768]⟩
abbrev S1x768 : Shape := ⟨2, ![1, 768]⟩
abbrev S256x768 : Shape := ⟨2, ![256, 768]⟩
abbrev S256x100000 : Shape := ⟨2, ![256, 100000]⟩
abbrev S1024x100000 : Shape := ⟨2, ![1024, 100000]⟩
abbrev S1x100000 : Shape := ⟨2, ![1, 100000]⟩

abbrev nBuf : Space → Nat
  | .hbm => 80
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1x1024x256, .f32⟩
  | .hbm, ⟨2, _⟩ => ⟨S768x100000, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S100000x256, .f32⟩
  | .hbm, ⟨7, _⟩ => ⟨S100000, .f32⟩
  | .hbm, ⟨8, _⟩ => ⟨S1024x256, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1, .i32⟩
  | .hbm, ⟨18, _⟩ => ⟨S_, .i32⟩
  | .hbm, ⟨19, _⟩ => ⟨S1024x1, .i32⟩
  | .hbm, ⟨20, _⟩ => ⟨S1024x1, .i1⟩
  | .hbm, ⟨21, _⟩ => ⟨S1x1, .i32⟩
  | .hbm, ⟨22, _⟩ => ⟨S1024x1, .i32⟩
  | .hbm, ⟨23, _⟩ => ⟨S1024x1, .i1⟩
  | .hbm, ⟨24, _⟩ => ⟨S1024x1, .i1⟩
  | .hbm, ⟨25, _⟩ => ⟨S_, .i1⟩
  | .hbm, ⟨26, _⟩ => ⟨S1024, .i1⟩
  | .hbm, ⟨27, _⟩ => ⟨S768x1024, .f32⟩
  | .hbm, ⟨28, _⟩ => ⟨S768x1024, .i1⟩
  | .hbm, ⟨29, _⟩ => ⟨S_, .f32⟩
  | .hbm, ⟨30, _⟩ => ⟨S768x1024, .f32⟩
  | .hbm, ⟨31, _⟩ => ⟨S768x1024, .f32⟩
  | .hbm, ⟨32, _⟩ => ⟨S1024x768, .f32⟩
  | .hbm, ⟨33, _⟩ => ⟨S1x768, .f32⟩
  | .hbm, ⟨34, _⟩ => ⟨S1024x768, .f32⟩
  | .hbm, ⟨35, _⟩ => ⟨S1024x768, .f32⟩
  | .hbm, ⟨36, _⟩ => ⟨S256x768, .f32⟩
  | .hbm, ⟨37, _⟩ => ⟨S1024x768, .f32⟩
  | .hbm, ⟨38, _⟩ => ⟨S1x768, .f32⟩
  | .hbm, ⟨39, _⟩ => ⟨S1024x768, .f32⟩
  | .hbm, ⟨40, _⟩ => ⟨S1024x768, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S1024x256, .f32⟩
  | .hbm, ⟨48, _⟩ => ⟨S1024x256, .f32⟩
  | .hbm, ⟨49, _⟩ => ⟨S1024x256, .f32⟩
  | .hbm, ⟨50, _⟩ => ⟨S_, .f32⟩
  | .hbm, ⟨51, _⟩ => ⟨S1024x256, .f32⟩
  | .hbm, ⟨52, _⟩ => ⟨S1024x256, .f32⟩
  | .hbm, ⟨53, _⟩ => ⟨S_, .f32⟩
  | .hbm, ⟨54, _⟩ => ⟨S1024x256, .f32⟩
  | .hbm, ⟨55, _⟩ => ⟨S1024x256, .f32⟩
  | .hbm, ⟨56, _⟩ => ⟨S1024x256, .f32⟩
  | .hbm, ⟨57, _⟩ => ⟨S1024x256, .f32⟩
  | .hbm, ⟨58, _⟩ => ⟨S1024x256, .f32⟩
  | .hbm, ⟨59, _⟩ => ⟨S_, .f32⟩
  | .hbm, ⟨60, _⟩ => ⟨S1024x256, .f32⟩
  | .hbm, ⟨61, _⟩ => ⟨S1024x256, .f32⟩
  | .hbm, ⟨62, _⟩ => ⟨S_, .f32⟩
  | .hbm, ⟨63, _⟩ => ⟨S1024x256, .f32⟩
  | .hbm, ⟨64, _⟩ => ⟨S1024x256, .f32⟩
  | .hbm, ⟨65, _⟩ => ⟨S1024x256, .f32⟩
  | .hbm, ⟨66, _⟩ => ⟨S1024x256, .f32⟩
  | .hbm, ⟨67, _⟩ => ⟨S1024x256, .f32⟩
  | .hbm, ⟨68, _⟩ => ⟨S_, .f32⟩
  | .hbm, ⟨69, _⟩ => ⟨S1024x256, .f32⟩
  | .hbm, ⟨70, _⟩ => ⟨S1024x256, .f32⟩
  | .hbm, ⟨71, _⟩ => ⟨S1024x256, .f32⟩
  | .hbm, ⟨72, _⟩ => ⟨S1024x256, .f32⟩
  | .hbm, ⟨73, _⟩ => ⟨S1024x256, .f32⟩
  | .hbm, ⟨74, _⟩ => ⟨S256x100000, .f32⟩
  | .hbm, ⟨75, _⟩ => ⟨S1024x100000, .f32⟩
  | .hbm, ⟨76, _⟩ => ⟨S1x100000, .f32⟩
  | .hbm, ⟨77, _⟩ => ⟨S1024x100000, .f32⟩
  | .hbm, ⟨78, _⟩ => ⟨S1024x100000, .f32⟩
  | .hbm, ⟨79, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst : Ref sig .tc := ⟨.hbm, 50, rfl⟩
abbrev main_v20 : Ref sig .tc := ⟨.hbm, 51, rfl⟩
abbrev main_v21 : Ref sig .tc := ⟨.hbm, 52, rfl⟩
abbrev main_cst_0 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_1 : Ref sig .tc := ⟨.hbm, 59, rfl⟩
abbrev main_v27 : Ref sig .tc := ⟨.hbm, 60, rfl⟩
abbrev main_v28 : Ref sig .tc := ⟨.hbm, 61, rfl⟩
abbrev main_cst_2 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_3 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩

abbrev nD : Nat := 1
abbrev τ : Topo := Topo.v7x

variable {F : FTy → Type} [FloatOps F]

class Facts₀ : Prop where
  shapeCasts_S1x1024x256_S1024x256 : S1x1024x256.ShapeCasts S1024x256
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S768x1024_1 : S1024.BroadcastsInDim S768x1024 (![1] : Fin 1 → Fin S768x1024.rank)
  bcast_S_S768x1024 : S_.BroadcastsInDim S768x1024 (![] : Fin 0 → Fin S768x1024.rank)
  transposes_S768x1024_S1024x768_1_0 : S768x1024.Transposes [1, 0] S1024x768
  bcast_S768_S1x768_1 : S768.BroadcastsInDim S1x768 (![1] : Fin 1 → Fin S1x768.rank)
  bcast_S1x768_S1024x768_0_1 : S1x768.BroadcastsInDim S1024x768 (![0, 1] : Fin 2 → Fin S1024x768.rank)
  transposes_S768x256_S256x768_1_0 : S768x256.Transposes [1, 0] S256x768
  slices_S1024x768_S1024x256_0_0 : S1024x768.Slices ![0, 0] S1024x256
  slices_S1024x768_S1024x256_0_256 : S1024x768.Slices ![0, 256] S1024x256
  slices_S1024x768_S1024x256_0_512 : S1024x768.Slices ![0, 512] S1024x256
  bcast_S_S1024x256 : S_.BroadcastsInDim S1024x256 (![] : Fin 0 → Fin S1024x256.rank)
  transposes_S100000x256_S256x100000_1_0 : S100000x256.Transposes [1, 0] S256x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S768x100000_S1024x1_S768x1024_0_1_n_n_1_1_7681_wf : GatherDims.WF S768x100000 S1024x1 S768x1024 [0] [1] [] [1] [] 1 ![768, 1]
  dot_S1024x256_S256x768_S1024x768_1_0_0_1_n_n_wf : DotDims.WF S1024x256 S256x768 S1024x768 [1] [0] [0] [1] [] []
  dot_S1024x256_S256x100000_S1024x100000_1_0_0_1_n_n_wf : DotDims.WF S1024x256 S256x100000 S1024x100000 [1] [0] [0] [1] [] []

variable [Facts₀]

def gather_S768x100000_S1024x1_S768x1024_0_1_n_n_1_1_7681 : GatherDims S768x100000 S1024x1 S768x1024 where
  offsetDims := [0]
  collapsedSliceDims := [1]
  operandBatchingDims := []
  startIndicesBatchingDims := []
  startIndexMap := [1]
  indexVectorDim := 1
  sliceSizes := ![768, 1]
  wf := gather_S768x100000_S1024x1_S768x1024_0_1_n_n_1_1_7681_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x100000_S1024x100000_1_0_0_1_n_n : DotDims S1024x256 S256x100000 S1024x100000 where
  lhsContracting := [1]
  rhsContracting := [0]
  lhsNonContracting := [0]
  rhsNonContracting := [1]
  lhsBatch := []
  rhsBatch := []
  wf := dot_S1024x256_S256x100000_S1024x100000_1_0_0_1_n_n_wf

class Facts : Prop extends Facts₀ where

variable [Facts]
-- ==== Proof.KernelFrame.lean ====
/- The frame claim of the kernel, by hand: every argument array of @main ends as it began.

   The claim says nothing of what the output tile holds, and at the word level the matrix product at full
   precision is an uninterpreted function of its whole operands, so nothing could be said of it anyway. So all
   four windows are FORGOTTEN: the body is handed each staging buffer at arbitrary contents and hands each back
   at arbitrary contents. That is enough, because the pipeline never writes an input array (it only copies
   blocks OUT of it), and the one array it does write is no argument of @main. The overhang of the last block
   of windows 1, 2 and 3 past their arrays plays no part: a clipped copy leaves words in the buffer's tail that
   nothing names, and here nothing in any buffer is named. -/
import proofs.«141771_j678604833556_2_alg».proof.Proof.Gen.Kernel.Frame
import proofs.«141771_j678604833556_2_alg».proof.Proof.Gen.Kernel.Skeleton
import Idealize.ShloMosaic.Lib.Pipeline.FrameBody
import Idealize.ShloMosaic.Lib.Pipeline.Kit
import Idealize.ShloMosaic.Lib.Tactic

-- the tiles have axes thousands long, and deciding a fact about one walks an axis coordinate by coordinate
set_option maxRecDepth 16384

noncomputable section

namespace Cert.Kernel.HandFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

-- five whole-tile accesses in sequence: the symbolic run of the body needs more steps than the default allows
set_option maxHeartbeats 1000000 in
/-- The body on ANY whole staging memrefs at ANY contents: it loads the three inputs whole, loads the output
    buffer (a value nothing reads), and stores the result over the whole output buffer. Each of the four buffers
    is owned in full before, so every access is allowed; each is owned in full after, at contents nothing names
    (the three inputs' are in fact unchanged, the output's is the stored value: neither is stated). -/
theorem kernel_run (c : Dev nD) (i : grid0.Coords)
    (arg1 : Memref sig .tc .vmem S1024x256 .f32) (harg1 : arg1.IsWhole)
    (arg2 : Memref sig .tc .vmem S4224x256 .f32) (harg2 : arg2.IsWhole)
    (arg3 : Memref sig .tc .vmem S1x4224 .f32) (harg3 : arg3.IsWhole)
    (arg4 : Memref sig .tc .vmem S1024x4224 .f32) (harg4 : arg4.IsWhole)
    (E : Set ℕ) (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)) -∗ K ⟨⟩))
      ⊢ wp frame (wpE (defs₀ (F := F)) Variants.none c none) E
          (cc0__out_proj_kernel i arg1 harg1 arg2 harg2 arg3 harg3 arg4 harg4) K := by
  simp only [Gen.cc0__out_proj_kernel_eq_skeleton]; unfold Gen.cc0__out_proj_kernel_skel
  unfold owns
  iintro ⟨⟨%d1, %f1, -, H1⟩, ⟨%d2, %f2, -, H2⟩, ⟨%d3, %f3, -, H3⟩, ⟨%d4, %f4, -, H4⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  iexists _, _; isplitr; swap; · iexact H4
  ipureintro; rfl

/-! ## The pipeline's proof data -/

/-- Every window is forgotten: nothing the claim reads depends on what any staging buffer holds. -/
def forgets : Fin 4 → Bool := fun _ => true

/-- The proof data of the one pipeline on core `c`: the arrays as the region finds them; after the body every
    window's buffer at contents nothing names; the invariant the scoped rest and the generator register, which
    the body does not touch; nothing owed; full shares. -/
def dats (_ : Fin 1) (c : Dev nD) : Dat τ (Elt F) Unit ℕ (UR sig nD τ) ℕ cfg0 c where
  A w := Gen.V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

/-- The proof data's arrays are the region-entry contents (the definition projected; the region-entry contents
    are a long fold over the host operations before the region, never unfolded). -/
theorem A_eq (c : Dev nD) (w : Fin cfg0.W) : (dats m 0 c).A w = Gen.V m c (Pipeline.arrRef spec0 w) := by
  dsimp only [dats]

/-! ## The body obligation, at a generic point -/

/-- What the body is called with at point `t`: the invariant, what the core owes, and each window's current
    staging buffer at some contents. -/
def bodyPre (c : Dev nD) (t : Fin cfg0.N) : sProp 𝕄 :=
  iprop((dats m 0 c).Φ t.castSucc ∗ (dats m 0 c).owesAt () t.castSucc
    ∗ (∃ X, owns (c : Thread nD τ) (Gen.st0_0 t) fullShare X)
    ∗ (∃ X, owns (c : Thread nD τ) (Gen.st0_1 t) fullShare X)
    ∗ (∃ X, owns (c : Thread nD τ) (Gen.st0_2 t) fullShare X)
    ∗ (∃ X, owns (c : Thread nD τ) (Gen.st0_3 t) fullShare X))

/-- and what it returns: the same, each buffer again at some contents. -/
def bodyPost (c : Dev nD) (t : Fin cfg0.N) : sProp 𝕄 :=
  iprop((dats m 0 c).Φ t.succ ∗ (dats m 0 c).owesAt () t.succ
    ∗ (∃ X, owns (c : Thread nD τ) (Gen.st0_0 t) fullShare X)
    ∗ (∃ X, owns (c : Thread nD τ) (Gen.st0_1 t) fullShare X)
    ∗ (∃ X, owns (c : Thread nD τ) (Gen.st0_2 t) fullShare X)
    ∗ (∃ X, owns (c : Thread nD τ) (Gen.st0_3 t) fullShare X))

/-- The body at any point: the four buffers go to the body's triple and come back; the invariant and what the
    core owes pass through unread (neither depends on the point). -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  rw [show (dats m 0 c).Φ t.succ = (dats m 0 c).Φ t.castSucc from rfl,
    show (dats m 0 c).owesAt () t.succ = (dats m 0 c).owesAt () t.castSucc from rfl]
  iintro ⟨HΦ, Ho, H0, H1, H2, H3⟩
  iapply (kernel_run c (grid0.coords t) _ _ _ _ _ _ _ _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation at every point, every window forgotten. -/
theorem body_obligation (c : Dev nD) :
    BodyObligation (dats (F := F) m 0 c) (defs₀ (F := F)) Variants.none () Set.univ forgets := fun t => by
  rw [Gen.bigSep_W0, Gen.bigSep_W0]
  exact sound_body m c t

/-! ## The run and the frame -/

-- the library's run is stated over a family of configurations; matching it against this program's one
-- configuration needs the configuration's definition opened while the types are compared
set_option backward.isDefEq.respectTransparency.types false in
/-- From any memory with zero counters, every weakly fair execution of @main on the cores terminates, and in
    every final state each INPUT array of the pipeline is as the region found it (nothing is stated of the
    output array) and every other unscoped buffer is as the region found it. -/
theorem run_main : θ_run defs (onTc (τ := τ) (main (F := F))) (s₀ m ρ)
    (Pipeline.RDat.FramePost (cfgs 0) (fun c => (dats m 0 c).toRForget forgets) (Gen.V m)) :=
  Pipeline.RDat.θ_run_frame cfgs (0 : Fin 1) Gen.launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := Gen.V m) (hmain := Gen.hmain m Variants.none) (hA := A_eq m) (hΦ := fun _ _ => rfl)

/-- THE FRAME: every argument array of @main ends as it began. Seven of the eight are no window's array: the
    run leaves each as the region found it, and no host operation before the region writes it. The eighth,
    `main_arg6`, is window 1's array, an input: the pipeline only reads it, so it too ends as the region found
    it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_arg0 (Pipeline.mem_restRefs_of main_arg0 (by decide) (by decide))).trans (Gen.V_main_arg0 m c),
      ((h c).2 main_arg1 (Pipeline.mem_restRefs_of main_arg1 (by decide) (by decide))).trans (Gen.V_main_arg1 m c),
      ((h c).2 main_arg2 (Pipeline.mem_restRefs_of main_arg2 (by decide) (by decide))).trans (Gen.V_main_arg2 m c),
      ((h c).2 main_arg3 (Pipeline.mem_restRefs_of main_arg3 (by decide) (by decide))).trans (Gen.V_main_arg3 m c),
      ((h c).2 main_arg4 (Pipeline.mem_restRefs_of main_arg4 (by decide) (by decide))).trans (Gen.V_main_arg4 m c),
      ((h c).2 main_arg5 (Pipeline.mem_restRefs_of main_arg5 (by decide) (by decide))).trans (Gen.V_main_arg5 m c),
      (Eq.mp (congrFun (((dats m 0 c).toRForget forgets).ArrAt_in 1 rfl _) _) ((h c).1 1)).trans
        ((A_eq m c 1).trans (Gen.V_main_arg6 m c)),
      ((h c).2 main_arg7 (Pipeline.mem_restRefs_of main_arg7 (by decide) (by decide))).trans (Gen.V_main_arg7 m c)⟩)
    (run_main m ρ)

end Cert.Kernel.HandFrame

end
-- ==== Proof.KBody.lean ====
/-
  The kernel body as a triple, at any float instance: on whole staging buffers holding `x0` (the resident
  [1024, 256] block), `x1` (a [4224, 256] tile of the output table), `x2` (a [1, 4224] tile of the bias) and
  anything in the output's, it runs to the same three and the output's buffer holding the body's one stored
  value, `tanh (x0 · x1ᵀ + x2)` as the printed operations spell it (`Gen.k0_pay1`).
-/
import proofs.«141771_j678604833556_2_alg».proof.Proof.Gen.KernelIdeal.Frame
import proofs.«141771_j678604833556_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four whole-buffer rectangles the body reads and writes through. -/
abbrev r0 : Rect S1024x256 := Rect.unit (s := S1024x256) ![0, 0] S1024x256.size inb_S1024x256_S1024x256_0_0
abbrev r1 : Rect S4224x256 := Rect.unit (s := S4224x256) ![0, 0] S4224x256.size inb_S4224x256_S4224x256_0_0
abbrev r2 : Rect S1x4224 := Rect.unit (s := S1x4224) ![0, 0] S1x4224.size inb_S1x4224_S1x4224_0_0
abbrev r3 : Rect S1024x4224 := Rect.unit (s := S1024x4224) ![0, 0] S1024x4224.size inb_S1024x4224_S1024x4224_0_0

/-- What the output's staging buffer holds after the body: its one store, of the payload of the three loads. -/
def out3 (x0 : Vec F S1024x256 .f32) (x1 : Vec F S4224x256 .f32) (x2 : Vec F S1x4224 .f32) : Vec F S1024x4224 .f32 :=
  View.canon [⟨r3, k0_pay1 (View.ld x0 r0) (View.ld x1 r1) (View.ld x2 r2)⟩]

/-- The one store covers the buffer. -/
theorem cover3 (p0 : Vec F S1024x4224 .f32) (y : S1024x4224.Idx) :
    ∃ pc ∈ ([⟨r3, p0⟩] : List (View.Piece (Elt F) S1024x4224 .f32)), y ∈ pc.1.set :=
  View.cover_of_tiled [⟨r3, p0⟩] S1024x4224.size (by rfl) y

set_option maxHeartbeats 1000000 in
/-- The body's triple. -/
theorem sound_kernel (c : Dev nD) (E : Set ℕ) (i : grid0.Coords)
    (arg1 : Memref sig .tc .vmem S1024x256 .f32) (harg1 : arg1.IsWhole) (arg2 : Memref sig .tc .vmem S4224x256 .f32) (harg2 : arg2.IsWhole)
    (arg3 : Memref sig .tc .vmem S1x4224 .f32) (harg3 : arg3.IsWhole) (arg4 : Memref sig .tc .vmem S1024x4224 .f32) (harg4 : arg4.IsWhole)
    (x0 : Vec F S1024x256 .f32) (x1 : Vec F S4224x256 .f32) (x2 : Vec F S1x4224 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__out_proj_kernel i arg1 harg1 arg2 harg2 arg3 harg3 arg4 harg4) K := by
  simp only [cc0__out_proj_kernel_eq_skeleton]; unfold cc0__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The stored value is the payload of the buffers' contents themselves: the loads and the store are of whole
    buffers from offset zero. -/
theorem out3_eq (x0 : Vec F S1024x256 .f32) (x1 : Vec F S4224x256 .f32) (x2 : Vec F S1x4224 .f32) :
    out3 x0 x1 x2 = k0_pay1 x0 x1 x2 := by
  have hz : (![0, 0] : Fin 2 → Nat) = fun _ => 0 := funext fun a => by fin_cases a <;> rfl
  unfold out3
  rw [View.canon_unit_zero hz]
  simp only [View.ld_unit_zero (S := S1024x256) hz, View.ld_unit_zero (S := S4224x256) hz, View.ld_unit_zero (S := S1x4224) hz]

end Cert.KernelIdeal.Body

end
-- ==== Proof.KPay.lean ====
/-
  The body's stored value over the extended reals, entry by entry: at row `a` and column `b` of the
  [1024, 4224] block it is `tanh (∑ₖ x0[a, k] * x1[b, k] + x2[0, b])` — the resident block's row `a` against the
  table tile's row `b` (the product contracts the two operands' second axes), plus the bias tile's entry `b`.
  So an entry of column `b` depends on the table tile through its row `b` alone and on the bias tile through
  its entry `b` alone: the columns of a block that overhangs the array's end see nothing of what the buffers hold
  past the end.
-/
import proofs.«141771_j678604833556_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen
open Idealize.ShloMosaic Idealize.ShloMosaic.ValueIdx

/-- The product's dimension numbers: result [1024, 4224] from [1024, 256] and [4224, 256], both contracted on
    their second axis. -/
abbrev D : DotDims S1024x256 S4224x256 S1024x4224 := dot_S1024x256_S4224x256_S1024x4224_1_1_0_0_n_n

/-- The contraction index is its one coordinate, below 256. -/
abbrev contr : D.contr.Idx ≃ Fin 256 := contrEquiv1 D 256 rfl rfl

/-- At result entry `(a, b)` and contraction position `k` the left operand is read at `(a, k)`, -/
theorem lhsIdx_eq (a : Fin 1024) (b : Fin 4224) (k : Fin 256) :
    D.lhsIdx (ix2 a b) (contr.symm k) = ix2 a k :=
  funext fun ax => match ax with
    | ⟨0, _⟩ => Fin.ext rfl
    | ⟨1, _⟩ => Fin.ext ((D.lhsIdx_val_of_single (cl := 1) rfl (ix2 a b) (contr.symm k)).trans (contrEquiv1_symm_val D 256 rfl rfl k))

/-- and the right operand at `(b, k)`. -/
theorem rhsIdx_eq (a : Fin 1024) (b : Fin 4224) (k : Fin 256) :
    D.rhsIdx (ix2 a b) (contr.symm k) = ix2 b k :=
  funext fun ax => match ax with
    | ⟨0, _⟩ => Fin.ext rfl
    | ⟨1, _⟩ => Fin.ext ((D.rhsIdx_val_of_single (cr := 1) rfl (ix2 a b) (contr.symm k)).trans (contrEquiv1_symm_val D 256 rfl rfl k))

/-- The stored value at an entry. -/
theorem pay_apply (x0 : Vec Ideal S1024x256 .f32) (x1 : Vec Ideal S4224x256 .f32) (x2 : Vec Ideal S1x4224 .f32)
    (a : Fin 1024) (b : Fin 4224) :
    k0_pay1 (F := Ideal) x0 x1 x2 (ix2 a b)
      = Ideal.tanh ((∑ k : Fin 256, x0 (ix2 a k) * x1 (ix2 b k)) + x2 (ix2 (0 : Fin 1) b)) := by
  unfold k0_pay1
  show Ideal.tanh (FloatOps.matmul (F := Ideal) D (some .fp32) (shapeCast S1024x256 x0 _) x1
      (constant (F := Ideal) S1024x4224 .f32 0x00000000#32) (ix2 a b)
    + broadcastTo S1024x4224 (shapeCast S1x4224 x2 _) _ (ix2 a b)) = _
  rw [Ideal.matmul_constant_zero_apply, shapeCast_self, shapeCast_self, broadcastTo_1b_ab_apply,
    ← Equiv.sum_comp contr.symm]
  simp only [lhsIdx_eq, rhsIdx_eq]

/-- Column `b` of the stored value sees only row `b` of the table tile and entry `b` of the bias tile. -/
theorem pay_congr (x0 : Vec Ideal S1024x256 .f32) (x1 x1' : Vec Ideal S4224x256 .f32) (x2 x2' : Vec Ideal S1x4224 .f32)
    (a : Fin 1024) (b : Fin 4224) (h1 : ∀ k : Fin 256, x1 (ix2 b k) = x1' (ix2 b k))
    (h2 : x2 (ix2 (0 : Fin 1) b) = x2' (ix2 (0 : Fin 1) b)) :
    k0_pay1 (F := Ideal) x0 x1 x2 (ix2 a b) = k0_pay1 (F := Ideal) x0 x1' x2' (ix2 a b) := by
  rw [pay_apply, pay_apply, h2]
  exact congrArg (fun s => Ideal.tanh (s + _)) (Finset.sum_congr rfl fun k _ => by rw [h1 k])

end Cert.KernelIdeal.Pay

end
-- ==== Proof.KRun.lean ====
/-
  The idealized kernel's run, over the extended reals. The pipeline's proof data: the resident block as the
  region finds it; the table tile and the bias tile at each point as fetched — the part of the block inside the
  array, filled out with zeros past the array's end (only the last of the 24 blocks overhangs; what the buffers
  really hold there is never named) —; and the output's buffer at the body's stored value of those. The body
  obligation asks of the three tiled windows only their part inside the array, and that part of the stored value
  does not depend on the filling (`Pay.pay_congr`: a column sees its own table row and bias entry alone).
-/
import proofs.«141771_j678604833556_2_alg».proof.Proof.KBody
import proofs.«141771_j678604833556_2_alg».proof.Proof.KPay

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The tiles -/

/-- The table tile at point `t`: its rows inside the array, zero rows past the array's end. -/
def tile1 (c : Dev nD) (t : Fin cfg0.N) : S4224x256.Idx → EReal :=
  win0_1.fill (grid0.coords t) (fun _ => (0 : EReal)) (Gen.iblk m c 1 t)

/-- The bias tile at point `t`, likewise. -/
def tile2 (c : Dev nD) (t : Fin cfg0.N) : S1x4224.Idx → EReal :=
  win0_2.fill (grid0.coords t) (fun _ => (0 : EReal)) (Gen.iblk m c 2 t)

/-- The body's stored value at point `t` of the resident block and those two tiles. -/
def res3 (c : Dev nD) (t : Fin cfg0.N) : S1024x4224.Idx → EReal :=
  k0_pay1 (F := Ideal) (Gen.iblk m c 0 t) (tile1 m c t) (tile2 m c t)

/-! ## The proof data -/

def dats (_ : Fin 1) (c : Dev nD) : Dat τ (Elt Ideal) Unit ℕ (UR sig nD τ) ℕ cfg0 c where
  A w := Gen.V m c (Pipeline.arrRef spec0 w)
  after w t := match w with
    | ⟨0, _⟩ => Gen.iblk m c 0 t
    | ⟨1, _⟩ => tile1 m c t
    | ⟨2, _⟩ => tile2 m c t
    | ⟨3, _⟩ => res3 m c t
  Φ _ := Pipeline.ΦA spec0 c
  q _ := fullShare
  owed _ := 0

theorem A_eq (c : Dev nD) (w : Fin cfg0.W) : (dats m 0 c).A w = Gen.V m c (Pipeline.arrRef spec0 w) := by
  dsimp only [dats]

theorem after0_0 (c : Dev nD) (t : Fin cfg0.N) : (dats m 0 c).after 0 t = Gen.iblk m c 0 t := by dsimp only [dats]
theorem after0_1 (c : Dev nD) (t : Fin cfg0.N) : (dats m 0 c).after 1 t = tile1 m c t := by dsimp only [dats]
theorem after0_2 (c : Dev nD) (t : Fin cfg0.N) : (dats m 0 c).after 2 t = tile2 m c t := by dsimp only [dats]
theorem after0_3 (c : Dev nD) (t : Fin cfg0.N) : (dats m 0 c).after 3 t = res3 m c t := by dsimp only [dats]

/-! ## What the body finds in each buffer -/

/-- The resident block, fetched once and left in place. -/
theorem before0 (c : Dev nD) (t : Fin cfg0.N) (d) : (dats m 0 c).before 0 t d = Gen.iblk m c 0 t :=
  Gen.before0_0_of m (dats m 0 c) (A_eq m c 0) (after0_0 m c) t d

/-- The table tile just fetched: the block's part inside the array, `d` past the array's end. -/
theorem before1 (c : Dev nD) (t : Fin cfg0.N) (d) :
    (dats m 0 c).before 1 t d = win0_1.fill (grid0.coords t) d (Gen.iblk m c 1 t) := by
  rw [(dats m 0 c).before_fetched 1 t (Gen.fetch0_1 t) d]
  unfold Dat.fetched Dat.blockOf Gen.iblk
  rw [A_eq m c 1]

/-- The bias tile just fetched, likewise. -/
theorem before2 (c : Dev nD) (t : Fin cfg0.N) (d) :
    (dats m 0 c).before 2 t d = win0_2.fill (grid0.coords t) d (Gen.iblk m c 2 t) := by
  rw [(dats m 0 c).before_fetched 2 t (Gen.fetch0_2 t) d]
  unfold Dat.fetched Dat.blockOf Gen.iblk
  rw [A_eq m c 2]

/-- The output's buffer, written back at every point, holds nothing named. -/
theorem before3 (c : Dev nD) (t : Fin cfg0.N) (d) : (dats m 0 c).before 3 t d = d :=
  (dats m 0 c).before_out_reset 3 rfl t
    (by by_cases h : t.val = 0
        · exact .inl h
        · exact .inr ⟨h, Gen.flush0_3 _⟩) d

/-! ## The part of the stored value inside the array does not see the filling -/

/-- Contents that agree with a filled block where the transfer moves it: a moved entry is the block's. -/
theorem fill_eq_of_moved {G : Pipeline.Grid} (w : Window sig G) (i : G.Coords) {α : Type} (d d' : w.block.Idx → α)
    (g : (w.xblock i).Idx → α) (j : w.block.Idx) (h : w.moved i j = true) : w.fill i d g j = w.fill i d' g j := by
  unfold Window.fill; rw [dif_pos h, dif_pos h]

/-- The cuts of the three tiled windows at a point, decided over the grid: the output block keeps as many columns
    as the table tile keeps rows and the bias tile entries; no other axis is cut. -/
theorem xsizes (t : Fin cfg0.N) :
    win0_3.xsize (grid0.coords t) 1 = win0_1.xsize (grid0.coords t) 0
    ∧ win0_1.xsize (grid0.coords t) 1 = 256
    ∧ win0_2.xsize (grid0.coords t) 1 = win0_1.xsize (grid0.coords t) 0
    ∧ win0_2.xsize (grid0.coords t) 0 = 1
    ∧ win0_3.xsize (grid0.coords t) 0 = 1024 :=
  (by decide +kernel : ∀ t : Fin grid0.N,
    win0_3.xsize (grid0.coords t) 1 = win0_1.xsize (grid0.coords t) 0
    ∧ win0_1.xsize (grid0.coords t) 1 = 256
    ∧ win0_2.xsize (grid0.coords t) 1 = win0_1.xsize (grid0.coords t) 0
    ∧ win0_2.xsize (grid0.coords t) 0 = 1
    ∧ win0_3.xsize (grid0.coords t) 0 = 1024) t

/-- Row `b` of the table tile is moved whole when column `b` of the output block is. -/
theorem moved1 (t : Fin cfg0.N) (b : Fin 4224) (hb : b.val < win0_3.xsize (grid0.coords t) 1) (k : Fin 256) :
    win0_1.moved (grid0.coords t) (ix2 b k) = true :=
  (win0_1.moved_iff (grid0.coords t) (ix2 b k)).mpr fun ax => match ax with
    | ⟨0, _⟩ => by
      show b.val < win0_1.xsize (grid0.coords t) 0
      rw [← (xsizes t).1]; exact hb
    | ⟨1, _⟩ => by
      show k.val < win0_1.xsize (grid0.coords t) 1
      rw [(xsizes t).2.1]; exact k.isLt

/-- Entry `b` of the bias tile likewise. -/
theorem moved2 (t : Fin cfg0.N) (b : Fin 4224) (hb : b.val < win0_3.xsize (grid0.coords t) 1) :
    win0_2.moved (grid0.coords t) (ix2 (0 : Fin 1) b) = true :=
  (win0_2.moved_iff (grid0.coords t) (ix2 (0 : Fin 1) b)).mpr fun ax => match ax with
    | ⟨0, _⟩ => by
      show 0 < win0_2.xsize (grid0.coords t) 0
      rw [(xsizes t).2.2.2.1]; exact Nat.one_pos
    | ⟨1, _⟩ => by
      show b.val < win0_2.xsize (grid0.coords t) 1
      rw [(xsizes t).2.2.1, ← (xsizes t).1]; exact hb

/-- The stored value's part inside the array is the same whatever fills the two tiles past the array's end. -/
theorem cut_res (c : Dev nD) (t : Fin cfg0.N) (d1 : S4224x256.Idx → EReal) (d2 : S1x4224.Idx → EReal) :
    win0_3.cut (grid0.coords t)
        (out3 (F := Ideal) (Gen.iblk m c 0 t) (win0_1.fill (grid0.coords t) d1 (Gen.iblk m c 1 t))
          (win0_2.fill (grid0.coords t) d2 (Gen.iblk m c 2 t)))
      = win0_3.cut (grid0.coords t) (res3 m c t) := by
  rw [out3_eq]
  unfold res3 tile1 tile2
  funext j
  show k0_pay1 (F := Ideal) _ _ _ (win0_3.xinj (grid0.coords t) j) = k0_pay1 (F := Ideal) _ _ _ (win0_3.xinj (grid0.coords t) j)
  have hb : ((win0_3.xinj (grid0.coords t) j) 1).val < win0_3.xsize (grid0.coords t) 1 := (j 1).isLt
  rw [eq_ix2 (win0_3.xinj (grid0.coords t) j)]
  exact Pay.pay_congr _ _ _ _ _ _ _
    (fun k => fill_eq_of_moved win0_1 _ _ _ _ _ (moved1 t _ hb k))
    (fill_eq_of_moved win0_2 _ _ _ _ _ (moved2 t _ hb))

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t))))
    ∗ (∃ d, owns (c : Thread nD τ) (st0_3 t) fullShare
        (win0_3.fill (grid0.coords t) d (win0_3.cut (grid0.coords t) ((dats m 0 c).after 3 t)))))

/-- The body at any point: the tiles arrive filled out with whatever the buffers held (`before1`, `before2`), the
    body stores its value of them, and on the part inside the array that is the named value (`cut_res`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel (F := Ideal) c Set.univ _ _ _ _ _ _ _ _ _ (Gen.iblk m c 0 t)
    (win0_1.fill (grid0.coords t) d1 (Gen.iblk m c 1 t)) (win0_2.fill (grid0.coords t) d2 (Gen.iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show win0_1.cut (grid0.coords t) (tile1 m c t) = Gen.iblk m c 1 t from win0_1.cut_fill _ _ _]
    iexact H1
  isplitl [H2]
  · iexists d2
    rw [show win0_2.cut (grid0.coords t) (tile2 m c t) = Gen.iblk m c 2 t from win0_2.cut_fill _ _ _]
    iexact H2
  · iexists _
    rw [win0_3.fill_congr_cut (grid0.coords t) (cut_res m c t d1 d2)]
    iexact H3

/-- The library's body obligation at every point: the three tiled windows stated on their part inside the array. -/
theorem body_obligation (c : Dev nD) : BodyObligationLoose (dats m 0 c) (defs₀ (F := Ideal)) Variants.none () Set.univ := fun t => by
  rw [Gen.bigSep_W0, Gen.bigSep_W0]
  exact sound_body m c t

/-! ## The run and the frame -/

set_option backward.isDefEq.respectTransparency.types false in
/-- From any memory with zero counters every weakly fair execution of @main ends, and every final state has
    each array of the pipeline at what the write-backs of the proof data leave there, every other unscoped
    buffer as the region found it. -/
theorem run_main : θ_run defs (onTc (τ := τ) (main (F := Ideal))) (s₀ m ρ) (Pipeline.FramePost cfgs (dats m) 0 (Gen.V m)) :=
  Pipeline.θ_run_frame cfgs (dats m) (0 : Fin 1) Gen.launch0 defs₀ Variants.none m ρ main
    (hbody := fun c => body_obligation m c) (hshare := fun c => (dats m 0 c).share_full fun _ => rfl)
    (howed := fun _ _ => rfl) (V := Gen.V m) (hmain := Gen.hmain m Variants.none) (hA := A_eq m) (hΦ := fun _ _ => rfl)

/-- The frame: the argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_of m ρ (dats m) (A_eq m) (run_main m ρ)

end Cert.KernelIdeal.Run

end
-- ==== Proof.HostChain.lean ====
/-
  The part of the computation that the kernel's program and the reference share, as pure functions of the
  argument arrays: the embedding lookup (the columns of the input-to-hidden table picked by the batch's item
  indices), the GRU cell, and their composition, the new hidden state `h' = (1 - z) * n + z * h`.
  Both programs apply these same operations, in the same order, to the same arguments before they part ways
  (one multiplies `h'` by the output table block by block, the other in one piece), so the certificate only
  ever needs to know that both feed the SAME `h'` into the output projection: the functions are named here
  once and never opened.
-/
import proofs.«141771_j678604833556_2_alg».proof.Proof.Gen.KernelIdeal
import Idealize.ShloMosaic.PureOps.Ideal

noncomputable section

namespace Cert.KernelIdeal.HostChain

open Cert.KernelIdeal Cert.KernelIdeal.Facts₀ Idealize.ShloMosaic

variable {F : FTy → Type} [FloatOps F]

/-- The embedding lookup: column `idx b` of the [768, 100000] table for each of the 1024 batch entries, as a
    [768, 1024] array. A negative index is first shifted by the table's width; an index that is still outside
    `0 … 99999` selects no column and the entry is the fill pattern instead. -/
def takeCols (tbl : FVec F S768x100000 .f32) (idx : IVec S1024 32) : FVec F S768x1024 .f32 :=
  let wrapped : IVec S1024 32 :=
    select (cmpi .slt idx (broadcastInDim S1024 ![] bcast_S_S1024 (constantI S_ 32 0#32)))
      (addi idx (broadcastInDim S1024 ![] bcast_S_S1024 (constantI S_ 32 100000#32))) idx
  let col : IVec S1024x1 32 := broadcastInDim S1024x1 ![0] bcast_S1024_S1024x1_0 wrapped
  let inRange : IVec S1024 1 :=
    Host.reduce IntOp.andi
      (andi (cmpi .sge col (broadcastInDim S1024x1 ![] bcast_S_S1024x1 (constantI S_ 32 0#32)))
        (cmpi .sle col (broadcastInDim S1024x1 ![0, 1] bcast_S1x1_S1024x1_0_1
          (broadcastInDim S1x1 ![1] bcast_S1_S1x1_1 (constantI S1 32 99999#32)))))
      (constantI S_ 1 1#1) reducesTo_S1024x1_S1024_d1 h_S_
  select (broadcastInDim S768x1024 ![1] bcast_S1024_S768x1024_1 inRange)
    (Host.gather gather_S768x100000_S1024x1_S768x1024_0_1_n_n_1_1_7681 tbl col)
    (broadcastInDim S768x1024 ![] bcast_S_S768x1024 (constant (F := F) S_ .f32 0x7FC00000#32))

/-- The GRU cell on a batch: with `gi = embᵀ + b_ih` and `gh = h · W_hhᵀ + b_hh` (both [1024, 768], three
    gates of 256 columns each), `r = σ(gi_r + gh_r)`, `z = σ(gi_z + gh_z)`, `n = tanh(gi_n + r * gh_n)`, and the
    result `(1 - z) * n + z * h`; the logistic function written as `1 / (1 + exp (-x))`. -/
def gruCell (h : FVec F S1024x256 .f32) (emb : FVec F S768x1024 .f32) (Whh : FVec F S768x256 .f32)
    (bih bhh : FVec F S768 .f32) : FVec F S1024x256 .f32 :=
  let one : FVec F S1024x256 .f32 := broadcastInDim S1024x256 ![] bcast_S_S1024x256 (constant (F := F) S_ .f32 0x3F800000#32)
  let gi : FVec F S1024x768 .f32 :=
    addf (transpose S1024x768 [1, 0] emb transposes_S768x1024_S1024x768_1_0)
      (broadcastInDim S1024x768 ![0, 1] bcast_S1x768_S1024x768_0_1 (broadcastInDim S1x768 ![1] bcast_S768_S1x768_1 bih))
  let gh : FVec F S1024x768 .f32 :=
    addf (Host.dotGeneral dot_S1024x256_S256x768_S1024x768_1_0_0_1_n_n none h
        (transpose S256x768 [1, 0] Whh transposes_S768x256_S256x768_1_0))
      (broadcastInDim S1024x768 ![0, 1] bcast_S1x768_S1024x768_0_1 (broadcastInDim S1x768 ![1] bcast_S768_S1x768_1 bhh))
  let r : FVec F S1024x256 .f32 :=
    Host.divf one (addf one (Host.exp (Host.negf (addf
      (extractStridedSlice S1024x256 ![0, 0] gi slices_S1024x768_S1024x256_0_0)
      (extractStridedSlice S1024x256 ![0, 0] gh slices_S1024x768_S1024x256_0_0)))))
  let z : FVec F S1024x256 .f32 :=
    Host.divf one (addf one (Host.exp (Host.negf (addf
      (extractStridedSlice S1024x256 ![0, 256] gi slices_S1024x768_S1024x256_0_256)
      (extractStridedSlice S1024x256 ![0, 256] gh slices_S1024x768_S1024x256_0_256)))))
  let n : FVec F S1024x256 .f32 :=
    Host.tanh (addf (extractStridedSlice S1024x256 ![0, 512] gi slices_S1024x768_S1024x256_0_512)
      (mulf r (extractStridedSlice S1024x256 ![0, 512] gh slices_S1024x768_S1024x256_0_512)))
  addf (mulf (subf one z) n) (mulf z h)

/-- The new hidden state of the batch, from the arguments: the GRU cell at the hidden state's one layer and the
    looked-up embedding columns. -/
def hnew (idx : IVec S1024 32) (hidden : FVec F S1x1024x256 .f32) (Wih : FVec F S768x100000 .f32)
    (Whh : FVec F S768x256 .f32) (bih bhh : FVec F S768 .f32) : FVec F S1024x256 .f32 :=
  gruCell (shapeCast S1024x256 hidden shapeCasts_S1x1024x256_S1024x256) (takeCols Wih idx) Whh bih bhh

end Cert.KernelIdeal.HostChain

end
-- ==== Proof.KHost.lean ====
/-
  What the kernel's program has computed when its one region is entered: the three stretches of host operations
  before the region (the hidden state's reshape; the embedding lookup; the GRU cell and the bias's reshape) read
  back as the shared functions of `HostChain` applied to the argument arrays.
-/
import proofs.«141771_j678604833556_2_alg».proof.Proof.Gen.KernelIdeal.Frame
import proofs.«141771_j678604833556_2_alg».proof.Proof.HostChain
import Idealize.ShloMosaic.Lib.StableHlo.Run
import Idealize.ShloMosaic.Lib.Pipeline.Frame

set_option maxHeartbeats 2000000

noncomputable section

namespace Cert.KernelIdeal.KHost

open Cert.KernelIdeal Cert.KernelIdeal.Gen Cert.KernelIdeal.HostChain
open Idealize.ShloMosaic Idealize.ShloMosaic.TcCoe Idealize.SL.Sem Idealize.ShloMosaic.StableHlo

variable {F : FTy → Type} [FloatOps F]

/-- The lookup stretch leaves the looked-up columns in its result buffer. -/
theorem take_eq (W : Valuation τ sig (Elt F)) :
    (after (Gen.hostOps0_1 (F := F)) W (Proc.devRef .tc main_v1) : S768x1024.Idx → F .f32)
      = takeCols (W (Proc.devRef .tc main_arg2)) (W (Proc.devRef .tc main_arg0)) := by
  after_results_simp
  rfl

/-- The last stretch leaves the GRU cell's result in `%38`. -/
theorem gru_eq (W : Valuation τ sig (Elt F)) :
    (after (Gen.hostOps0_2 (F := F)) W (Proc.devRef .tc main_v38) : S1024x256.Idx → F .f32)
      = gruCell (W (Proc.devRef .tc main_v0)) (W (Proc.devRef .tc main_v1)) (W (Proc.devRef .tc main_arg3))
          (W (Proc.devRef .tc main_arg4)) (W (Proc.devRef .tc main_arg5)) := by
  after_results_simp
  rfl

/-- The hidden state's reshape. -/
theorem reshape_eq (W : Valuation τ sig (Elt F)) :
    (after (Gen.hostOps0 (F := F)) W (Proc.devRef .tc main_v0) : S1024x256.Idx → F .f32)
      = shapeCast S1024x256 (W (Proc.devRef .tc main_arg1)) Facts₀.shapeCasts_S1x1024x256_S1024x256 := by
  after_results_simp
  rfl

/-- The bias's reshape to one row. -/
theorem bias_eq (W : Valuation τ sig (Elt F)) :
    (after (Gen.hostOps0_2 (F := F)) W (Proc.devRef .tc main_v39) : S1x100000.Idx → F .f32)
      = shapeCast S1x100000 (W (Proc.devRef .tc main_arg7)) Facts₀.shapeCasts_S100000_S1x100000 := by
  after_results_simp
  rfl

/-- A stretch leaves the buffers it does not write as they were. -/
theorem keep0 (W : Valuation τ sig (Elt F)) :
    after (Gen.hostOps0 (F := F)) W (Proc.devRef .tc main_arg0) = W (Proc.devRef .tc main_arg0)
    ∧ after (Gen.hostOps0 (F := F)) W (Proc.devRef .tc main_arg2) = W (Proc.devRef .tc main_arg2)
    ∧ after (Gen.hostOps0 (F := F)) W (Proc.devRef .tc main_arg3) = W (Proc.devRef .tc main_arg3)
    ∧ after (Gen.hostOps0 (F := F)) W (Proc.devRef .tc main_arg4) = W (Proc.devRef .tc main_arg4)
    ∧ after (Gen.hostOps0 (F := F)) W (Proc.devRef .tc main_arg5) = W (Proc.devRef .tc main_arg5)
    ∧ after (Gen.hostOps0 (F := F)) W (Proc.devRef .tc main_arg7) = W (Proc.devRef .tc main_arg7) := by
  refine ⟨?_, ?_, ?_, ?_, ?_, ?_⟩ <;> after_results_simp

theorem keep1 (W : Valuation τ sig (Elt F)) :
    after (Gen.hostOps0_1 (F := F)) W (Proc.devRef .tc main_v0) = W (Proc.devRef .tc main_v0)
    ∧ after (Gen.hostOps0_1 (F := F)) W (Proc.devRef .tc main_arg3) = W (Proc.devRef .tc main_arg3)
    ∧ after (Gen.hostOps0_1 (F := F)) W (Proc.devRef .tc main_arg4) = W (Proc.devRef .tc main_arg4)
    ∧ after (Gen.hostOps0_1 (F := F)) W (Proc.devRef .tc main_arg5) = W (Proc.devRef .tc main_arg5)
    ∧ after (Gen.hostOps0_1 (F := F)) W (Proc.devRef .tc main_arg7) = W (Proc.devRef .tc main_arg7) := by
  refine ⟨?_, ?_, ?_, ?_, ?_⟩ <;> after_results_simp

variable (m : (ℓ : Loc nD τ sig) → Buf (Elt F) ℓ)

/-- The region's entry contents are the three stretches applied in turn to the launch memory. -/
theorem V_eq (c : Dev nD) (b : Ref sig .tc) :
    Gen.V m c b = after (Gen.hostOps0_2 (F := F)) (after (Gen.hostOps0_1 (F := F)) (after (Gen.hostOps0 (F := F)) (fun b => m (c, b)))) (Proc.devRef .tc b) := by
  unfold Gen.V
  rw [List.flatten_cons, List.flatten_cons, List.flatten_cons, List.flatten_nil, List.append_nil,
    StableHlo.after_append, StableHlo.after_append]

/-- When the region is entered `%38` holds the new hidden state of the arguments, -/
theorem V_v38 (c : Dev nD) :
    (Gen.V m c main_v38 : S1024x256.Idx → F .f32)
      = hnew (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [V_eq, gru_eq, take_eq, (keep1 _).1, (keep1 _).2.1, (keep1 _).2.2.1, (keep1 _).2.2.2.1, reshape_eq,
    (keep0 _).1, (keep0 _).2.1, (keep0 _).2.2.1, (keep0 _).2.2.2.1, (keep0 _).2.2.2.2.1]
  rfl

/-- and `%39` the bias as one row. -/
theorem V_v39 (c : Dev nD) :
    (Gen.V m c main_v39 : S1x100000.Idx → F .f32)
      = shapeCast S1x100000 (m ((c.tc : Thread nD τ).loc main_arg7)) Facts₀.shapeCasts_S100000_S1x100000 := by
  rw [V_eq, bias_eq, (keep1 _).2.2.2.2, (keep0 _).2.2.2.2.2]

end Cert.KernelIdeal.KHost

end
-- ==== Proof.OutProj.lean ====
/-
  The output projection as one function of whole arrays over the extended reals: entry `(a, c)` of the
  [1024, 100000] result is `tanh (∑ₖ h[a, k] * W[c, k] + b[c])` — row `a` of the hidden state against row `c` of
  the output table, plus the bias entry `c`. Both programs end with this array: one computes it block of columns
  by block of columns, the other in one piece.
-/
import Idealize.ShloMosaic.PureOps.Ideal
import Idealize.ShloMosaic.Lib.ValueIdx

noncomputable section

namespace Cert.OutProj

open Idealize.ShloMosaic Idealize.ShloMosaic.ValueIdx

def proj (h : (⟨2, ![1024, 256]⟩ : Shape).Idx → EReal) (W : (⟨2, ![100000, 256]⟩ : Shape).Idx → EReal)
    (b : (⟨1, ![100000]⟩ : Shape).Idx → EReal) : (⟨2, ![1024, 100000]⟩ : Shape).Idx → EReal :=
  fun i => Ideal.tanh ((∑ k : Fin 256, h (ix2 (n0 := 1024) (i 0) k) * W (ix2 (n0 := 100000) (i 1) k)) + b (ix1 (n := 100000) (i 1)))

theorem proj_apply (h : (⟨2, ![1024, 256]⟩ : Shape).Idx → EReal) (W : (⟨2, ![100000, 256]⟩ : Shape).Idx → EReal)
    (b : (⟨1, ![100000]⟩ : Shape).Idx → EReal) (a : Fin 1024) (c : Fin 100000) :
    proj h W b (ix2 a c) = Ideal.tanh ((∑ k : Fin 256, h (ix2 a k) * W (ix2 c k)) + b (ix1 c)) := rfl

end Cert.OutProj

end
-- ==== Proof.KFinal.lean ====
/-
  The idealized kernel's result array after the run, in closed form. Point `t` of the 24 writes back columns
  `4224 t … 4224 t + 4223` of the result (the last point only the 2848 columns that are inside the array), and what
  it writes there is those columns of `OutProj.proj` of the arrays the region finds: the resident block IS the
  hidden state, row `b` of the table tile at point `t` is row `4224 t + b` of the table, entry `b` of the bias
  tile is entry `4224 t + b` of the bias. The 24 column ranges cover the array, so it ends holding the projection.
-/
import proofs.«141771_j678604833556_2_alg».proof.Proof.KRun
import proofs.«141771_j678604833556_2_alg».proof.Proof.KHost
import proofs.«141771_j678604833556_2_alg».proof.Proof.OutProj

set_option maxRecDepth 16384

noncomputable section

namespace Cert.KernelIdeal.Final

open Cert.KernelIdeal Cert.KernelIdeal.Gen Cert.KernelIdeal.Body Cert.KernelIdeal.Run
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The printed index maps and cuts, decided over the grid: the resident block is always block (0, 0); the table
    tile is block (t, 0), the bias tile and the result block are block (0, t); the result block keeps 4224
    columns at every point but the last, which keeps the 2848 inside the array. -/
theorem grid_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ t.val * 4224 + win0_3.xsize (grid0.coords t) (1 : Fin 2) ≤ 100000
    ∧ (t.val < 23 → win0_3.xsize (grid0.coords t) (1 : Fin 2) = 4224)
    ∧ (t.val = 23 → win0_3.xsize (grid0.coords t) (1 : Fin 2) = 2848) :=
  (by decide +kernel : ∀ t : Fin grid0.N, _)

/-! ## The blocks, read -/

/-- The resident block is the whole hidden-state array. -/
theorem read0 (c : Dev nD) (t : Fin cfg0.N) (a : Fin 1024) (k : Fin 256) :
    Gen.iblk m c 0 t (ix2 a k) = (Gen.V m c main_v38 : S1024x256.Idx → EReal) (ix2 a k) := by
  obtain ⟨e0, e1, -⟩ := grid_facts t
  show Gen.V m c main_v38 (((cfg0.win 0).blk t).view.emb (ix2 a k)) = Gen.V m c main_v38 (ix2 a k)
  refine congrArg _ (funext fun ax => Fin.ext ?_)
  match ax with
  | ⟨0, _⟩ => show win0_0.index t (0 : Fin 2) * 1024 + 1 * a.val = a.val; omega
  | ⟨1, _⟩ => show win0_0.index t (1 : Fin 2) * 256 + 1 * k.val = k.val; omega

/-- Row `b` of the fetched table tile, for a row inside the array, is row `4224 t + b` of the table. -/
theorem read1 (c : Dev nD) (t : Fin cfg0.N) (d : S4224x256.Idx → EReal) (b : Fin 4224)
    (hb : b.val < win0_3.xsize (grid0.coords t) 1) (k : Fin 256) (hc : t.val * 4224 + b.val < 100000) :
    win0_1.fill (grid0.coords t) d (Gen.iblk m c 1 t) (ix2 b k)
      = (Gen.V m c main_arg6 : S100000x256.Idx → EReal) (ix2 ⟨t.val * 4224 + b.val, hc⟩ k) := by
  obtain ⟨-, -, e2, e3, -⟩ := grid_facts t
  unfold Window.fill
  rw [dif_pos (moved1 t b hb k)]
  show Gen.V m c main_arg6 (((cfg0.win 1).blk t).view.emb _) = Gen.V m c main_arg6 _
  refine congrArg _ (funext fun ax => Fin.ext ?_)
  match ax with
  | ⟨0, _⟩ => show win0_1.index t (0 : Fin 2) * 4224 + 1 * b.val = t.val * 4224 + b.val; omega
  | ⟨1, _⟩ => show win0_1.index t (1 : Fin 2) * 256 + 1 * k.val = k.val; omega

/-- Entry `b` of the fetched bias tile, inside the array, is entry `4224 t + b` of the bias row. -/
theorem read2 (c : Dev nD) (t : Fin cfg0.N) (d : S1x4224.Idx → EReal) (b : Fin 4224)
    (hb : b.val < win0_3.xsize (grid0.coords t) 1) (hc : t.val * 4224 + b.val < 100000) :
    win0_2.fill (grid0.coords t) d (Gen.iblk m c 2 t) (ix2 (0 : Fin 1) b)
      = (Gen.V m c main_v39 : S1x100000.Idx → EReal) (ix2 (0 : Fin 1) ⟨t.val * 4224 + b.val, hc⟩) := by
  obtain ⟨-, -, -, -, e4, e5, -⟩ := grid_facts t
  unfold Window.fill
  rw [dif_pos (moved2 t b hb)]
  show Gen.V m c main_v39 (((cfg0.win 2).blk t).view.emb _) = Gen.V m c main_v39 _
  refine congrArg _ (funext fun ax => Fin.ext ?_)
  match ax with
  | ⟨0, _⟩ => show win0_2.index t (0 : Fin 2) * 1 + 1 * 0 = 0; omega
  | ⟨1, _⟩ => show win0_2.index t (1 : Fin 2) * 4224 + 1 * b.val = t.val * 4224 + b.val; omega

/-! ## The result array -/

/-- The bias as the region finds it (one row), read as a vector. -/
def biasRow (c : Dev nD) : (⟨1, ![100000]⟩ : Shape).Idx → EReal :=
  fun i => (Gen.V m c main_v39 : S1x100000.Idx → EReal) (ix2 (0 : Fin 1) (i 0))

/-- The projection of the arrays the region finds. -/
def G (c : Dev nD) : S1024x100000.Idx → EReal :=
  Cert.OutProj.proj (Gen.V m c main_v38) (Gen.V m c main_arg6) (biasRow m c)

/-- A block of any array, read at a block index, is the array at the index the block puts it. -/
theorem read3 (A : S1024x100000.Idx → EReal) (t : Fin cfg0.N) (y : ((cfg0.win 3).xblock (grid0.coords t)).Idx) :
    ((cfg0.win 3).blk t).view.read (Elt Ideal) A y = A (((cfg0.win 3).blk t).view.emb y) := rfl

/-- The part of any buffer contents that a write-back moves, read at an index of that part. -/
theorem cut3 (X : S1024x4224.Idx → EReal) (t : Fin cfg0.N) (y : ((cfg0.win 3).xblock (grid0.coords t)).Idx) :
    (cfg0.win 3).cut (grid0.coords t) X y = X (win0_3.xinj (grid0.coords t) y) := rfl

/-- What point `t` writes back is its block of columns of `G`. -/
theorem flushed3_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  funext y
  obtain ⟨-, -, -, -, -, -, e6, e7, hin, -⟩ := grid_facts t
  have hy0 : (y 0).val < win0_3.xsize (grid0.coords t) 0 := (y 0).isLt
  have hy1 : (y 1).val < win0_3.xsize (grid0.coords t) 1 := (y 1).isLt
  have hx0 : win0_3.xsize (grid0.coords t) 0 = 1024 := (xsizes t).2.2.2.2
  have hle : win0_3.xsize (grid0.coords t) 1 ≤ 4224 := win0_3.xsize_le (grid0.coords t) 1
  have ha : (y 0).val < 1024 := by omega
  have hb4 : (y 1).val < 4224 := by omega
  have hc : t.val * 4224 + (y 1).val < 100000 := by omega
  have hinj : win0_3.xinj (grid0.coords t) y = ix2 (⟨(y 0).val, ha⟩ : Fin 1024) (⟨(y 1).val, hb4⟩ : Fin 4224) :=
    funext fun ax => match ax with
      | ⟨0, _⟩ => Fin.ext rfl
      | ⟨1, _⟩ => Fin.ext rfl
  have hemb : ((cfg0.win 3).blk t).view.emb y
      = ix2 (⟨(y 0).val, ha⟩ : Fin 1024) (⟨t.val * 4224 + (y 1).val, hc⟩ : Fin 100000) := by
    funext ax; apply Fin.ext
    match ax with
    | ⟨0, _⟩ => show win0_3.index t (0 : Fin 2) * 1024 + 1 * (y 0).val = (y 0).val; omega
    | ⟨1, _⟩ => show win0_3.index t (1 : Fin 2) * 4224 + 1 * (y 1).val = t.val * 4224 + (y 1).val; omega
  rw [cut3 (res3 m c t) t y, read3 (G m c) t y, hinj, hemb]
  unfold res3 G
  rw [Pay.pay_apply, Cert.OutProj.proj_apply]
  refine congrArg Ideal.tanh (congrArg₂ (· + ·) (Finset.sum_congr rfl fun k _ => ?_) ?_)
  · rw [read0 m c t _ k]
    unfold tile1
    rw [read1 m c t _ ⟨(y 1).val, hb4⟩ hy1 k hc]
  · unfold tile2 biasRow
    exact read2 m c t _ ⟨(y 1).val, hb4⟩ hy1 hc

/-- An index of the result array is in point `t`'s block iff each coordinate is in the block's range, cut at the
    array's end. -/
theorem mem_blk3 (t : Fin cfg0.N) (i : S1024x100000.Idx) :
    i ∈ ((cfg0.win 3).blk t).view.set ↔ ∀ ax : Fin 2, win0_3.index t ax * S1024x4224.size ax ≤ (i ax).val
      ∧ (i ax).val < win0_3.index t ax * S1024x4224.size ax + win0_3.xsize (grid0.coords t) ax := by
  show i ∈ ((View.whole main_v40).slice (win0_3.rect t)).set ↔ _
  rw [View.set_slice_whole, Rect.mem_set_unit]
  exact Iff.rfl

/-- Every column of the result is in the block of the point its number divided by 4224 names. -/
theorem cover3 (i : S1024x100000.Idx) :
    ∃ t : Fin cfg0.N, (cfg0.win 3).flush t = true ∧ i ∈ ((cfg0.win 3).blk t).view.set := by
  have hi0 : (i 0).val < 1024 := (i 0).isLt
  have hi1 : (i 1).val < 100000 := (i 1).isLt
  have hN : cfg0.N = 24 := Gen.N_0
  have hq : (i 1).val / 4224 < cfg0.N := by rw [hN]; omega
  refine ⟨⟨(i 1).val / 4224, hq⟩, Gen.flush0_3 _, ?_⟩
  rw [mem_blk3]
  obtain ⟨-, -, -, -, -, -, e6, e7, -, hlt, heq⟩ := grid_facts ⟨(i 1).val / 4224, hq⟩
  have hx0 : win0_3.xsize (grid0.coords ⟨(i 1).val / 4224, hq⟩) 0 = 1024 := (xsizes _).2.2.2.2
  intro ax
  match ax with
  | ⟨0, _⟩ =>
    show win0_3.index _ (0 : Fin 2) * 1024 ≤ (i 0).val ∧ (i 0).val < win0_3.index _ (0 : Fin 2) * 1024 + win0_3.xsize _ (0 : Fin 2)
    rw [e6, hx0]; omega
  | ⟨1, _⟩ =>
    show win0_3.index _ (1 : Fin 2) * 4224 ≤ (i 1).val ∧ (i 1).val < win0_3.index _ (1 : Fin 2) * 4224 + win0_3.xsize _ (1 : Fin 2)
    rw [e7]
    by_cases h23 : (i 1).val / 4224 < 23
    · rw [hlt h23]; show (i 1).val / 4224 * 4224 ≤ (i 1).val ∧ (i 1).val < (i 1).val / 4224 * 4224 + 4224; omega
    · have h : (i 1).val / 4224 = 23 := by omega
      rw [heq h]; show (i 1).val / 4224 * 4224 ≤ (i 1).val ∧ (i 1).val < (i 1).val / 4224 * 4224 + 2848; omega

/-- The result array after the run is the projection of the arrays the region finds. -/
theorem final3 (c : Dev nD) : (dats m 0 c).arrAt 3 cfg0.N = G m c :=
  (dats m 0 c).arrAt_eq_of_cover 3 (G m c) (fun t _ => flushed3_eq m c t) cover3

/-- The projection of the arrays the region finds is the projection of the new hidden state of the arguments,
    the output table and the bias. -/
theorem G_eq (c : Dev nD) :
    G m c = Cert.OutProj.proj
      (HostChain.hnew (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)))
      (m ((c.tc : Thread nD τ).loc main_arg6)) (m ((c.tc : Thread nD τ).loc main_arg7)) := by
  have hb : biasRow m c = (m ((c.tc : Thread nD τ).loc main_arg7) : S100000.Idx → EReal) := by
    funext i
    obtain ⟨j, rfl⟩ : ∃ j : Fin 100000, i = ix1 j := ⟨i 0, eq_ix1 i⟩
    unfold biasRow
    rw [KHost.V_v39 m c]
    exact shapeCast_a_1a_apply _ _ (0 : Fin 1) j
  unfold G
  rw [hb, KHost.V_v38 m c, Gen.V_main_arg6 m c]

/-! ## The run, read -/

/-- Every weakly fair execution of the idealized kernel's program ends with the result array at the projection
    of the arguments and the argument arrays unchanged. -/
theorem run : θ_run defs (onTc (τ := τ) (main (F := Ideal))) ⟨m, fun _ => 0, ρ⟩ fun r => ∀ c : Dev nD,
      r.2.mem ((c.tc : Thread nD τ).loc main_v40)
        = Cert.OutProj.proj
            (HostChain.hnew (F := Ideal) (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(((h c).1 3).trans (final3 m c)).trans (G_eq m c),
      ((h c).2 main_arg0 (Pipeline.mem_restRefs_of main_arg0 (by decide) (by decide))).trans (Gen.V_main_arg0 m c),
      ((h c).2 main_arg1 (Pipeline.mem_restRefs_of main_arg1 (by decide) (by decide))).trans (Gen.V_main_arg1 m c),
      ((h c).2 main_arg2 (Pipeline.mem_restRefs_of main_arg2 (by decide) (by decide))).trans (Gen.V_main_arg2 m c),
      ((h c).2 main_arg3 (Pipeline.mem_restRefs_of main_arg3 (by decide) (by decide))).trans (Gen.V_main_arg3 m c),
      ((h c).2 main_arg4 (Pipeline.mem_restRefs_of main_arg4 (by decide) (by decide))).trans (Gen.V_main_arg4 m c),
      ((h c).2 main_arg5 (Pipeline.mem_restRefs_of main_arg5 (by decide) (by decide))).trans (Gen.V_main_arg5 m c),
      ((h c).1 1).trans (((dats m 0 c).arrAt_in 1 rfl _).trans ((A_eq m c 1).trans (Gen.V_main_arg6 m c))),
      ((h c).2 main_arg7 (Pipeline.mem_restRefs_of main_arg7 (by decide) (by decide))).trans (Gen.V_main_arg7 m c)⟩)
    (run_main m ρ)

end Cert.KernelIdeal.Final

end
-- ==== Proof.RefRun.lean ====
/-
  The reference program's run, read back. The reference is a straight line of seventy-two array operations:
  the hidden state's reshape; the embedding lookup (twenty-three operations: the index wrapped, tested against
  the table's width, the columns gathered, the out-of-range entries filled); the GRU cell (forty-two, ending in
  the new hidden state `h'`); and the output projection (six): `tanh (h' · W_outᵀ + b_out)`.
  The first three stretches are, operation for operation, the ones the kernel's program runs before its region,
  so they are read back as the SAME shared functions (`takeCols`, `gruCell`, `hnew` of `HostChain`) of the
  argument arrays, and never opened; the last stretch is read back as `refOut`, the projection in one piece.
  Every weakly fair execution terminates with the result array at `refOut (hnew …) W_out b_out` of the launch
  contents and the eight argument arrays unchanged.
-/
import proofs.«141771_j678604833556_2_alg».proof.Proof.Gen.ReferenceIdeal
import proofs.«141771_j678604833556_2_alg».proof.Proof.HostChain
import Idealize.ShloMosaic.Lib.StableHlo.Run
import Idealize.ShloMosaic.Lib.Pipeline.Frame
import Idealize.ShloMosaic.PureOps.Ideal

set_option maxHeartbeats 2000000

noncomputable section

namespace Cert.ReferenceIdeal.RefRun

open Cert.ReferenceIdeal Cert.ReferenceIdeal.Facts₀
open Idealize.ShloMosaic Idealize.ShloMosaic.TcCoe Idealize.SL.Sem Idealize.ShloMosaic.StableHlo

variable {F : FTy → Type} [FloatOps F]

/-! ## The operations, in four stretches -/

/-- The hidden state's one layer, as a [1024, 256] array. -/
abbrev ops0 : List (HloOp τ sig (Elt F)) :=
  [ StableHlo.reshape main_arg1 main_v0 rfl shapeCasts_S1x1024x256_S1024x256 ]

/-- The embedding lookup: the twenty-three operations of the two module-local functions, at the buffers of
    their one call. -/
abbrev ops1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1024, .i32⟩) (broadcastInDim S1024 ![] bcast_S_S1024),
    StableHlo.TRef.binary (.of main_arg0 : StableHlo.TRef sig ⟨S1024, .i32⟩) (.of main_call0_v0 : StableHlo.TRef sig ⟨S1024, .i32⟩) (.of main_call0_v1 : StableHlo.TRef sig ⟨S1024, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1024, .i32⟩) (broadcastInDim S1024 ![] bcast_S_S1024),
    StableHlo.TRef.binary (.of main_arg0 : StableHlo.TRef sig ⟨S1024, .i32⟩) (.of main_call0_v2 : StableHlo.TRef sig ⟨S1024, .i32⟩) (.of main_call0_v3 : StableHlo.TRef sig ⟨S1024, .i32⟩) addi,
    StableHlo.TRef.ternary (.of main_call0_v1 : StableHlo.TRef sig ⟨S1024, .i1⟩) (.of main_call0_v3 : StableHlo.TRef sig ⟨S1024, .i32⟩) (.of main_arg0 : StableHlo.TRef sig ⟨S1024, .i32⟩) (.of main_call0_v4 : StableHlo.TRef sig ⟨S1024, .i32⟩) select,
    StableHlo.TRef.unary main_call0_call0.v0 (.of main_call0_v5 : StableHlo.TRef sig ⟨S1024x1, .i32⟩) (broadcastInDim S1024x1 ![0] bcast_S1024_S1024x1_0),
    StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1024x1, .i32⟩) (broadcastInDim S1024x1 ![] bcast_S_S1024x1),
    StableHlo.TRef.binary (.of main_call0_v5 : StableHlo.TRef sig ⟨S1024x1, .i32⟩) (.of main_call0_v6 : StableHlo.TRef sig ⟨S1024x1, .i32⟩) (.of main_call0_v7 : StableHlo.TRef sig ⟨S1024x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1024x1, .i32⟩) (broadcastInDim S1024x1 ![0, 1] bcast_S1x1_S1024x1_0_1),
    StableHlo.TRef.binary (.of main_call0_v5 : StableHlo.TRef sig ⟨S1024x1, .i32⟩) (.of main_call0_v9 : StableHlo.TRef sig ⟨S1024x1, .i32⟩) (.of main_call0_v10 : StableHlo.TRef sig ⟨S1024x1, .i1⟩) (cmpi .sle),
    StableHlo.TRef.binary (.of main_call0_v7 : StableHlo.TRef sig ⟨S1024x1, .i1⟩) (.of main_call0_v10 : StableHlo.TRef sig ⟨S1024x1, .i1⟩) (.of main_call0_v11 : StableHlo.TRef sig ⟨S1024x1, .i1⟩) andi,
    StableHlo.TRef.nullary (.of main_call0_c_3 : StableHlo.TRef sig ⟨S_, .i1⟩) (constantI S_ 1 1#1),
    StableHlo.TRef.binary (.of main_call0_v11 : StableHlo.TRef sig ⟨S1024x1, .i1⟩) (.of main_call0_c_3 : StableHlo.TRef sig ⟨S_, .i1⟩) (.of main_call0_v12 : StableHlo.TRef sig ⟨S1024, .i1⟩) (fun x v => Host.reduce IntOp.andi x v reducesTo_S1024x1_S1024_d1 h_S_),
    StableHlo.TRef.binary (.of main_arg2 : StableHlo.TRef sig ⟨S768x100000, .f32⟩) (.of main_call0_v5 : StableHlo.TRef sig ⟨S1024x1, .i32⟩) (.of main_call0_v13 : StableHlo.TRef sig ⟨S768x1024, .f32⟩) (fun x i => Host.gather gather_S768x100000_S1024x1_S768x1024_0_1_n_n_1_1_7681 x i),
    StableHlo.TRef.unary (.of main_call0_v12 : StableHlo.TRef sig ⟨S1024, .i1⟩) (.of main_call0_v14 : StableHlo.TRef sig ⟨S768x1024, .i1⟩) (broadcastInDim S768x1024 ![1] bcast_S1024_S768x1024_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S768x1024, .f32⟩) (broadcastInDim S768x1024 ![] bcast_S_S768x1024),
    StableHlo.TRef.ternary (.of main_call0_v14 : StableHlo.TRef sig ⟨S768x1024, .i1⟩) (.of main_call0_v13 : StableHlo.TRef sig ⟨S768x1024, .f32⟩) (.of main_call0_v15 : StableHlo.TRef sig ⟨S768x1024, .f32⟩) (.of main_v1 : StableHlo.TRef sig ⟨S768x1024, .f32⟩) select ]

/-- The GRU cell: forty-two operations, the last writing the new hidden state. -/
abbrev ops2 : List (HloOp τ sig (Elt F)) :=
  ( StableHlo.unary main_v1 main_v2 ((transpose S1024x768 [1, 0] · transposes_S768x1024_S1024x768_1_0) : (⟨S768x1024, .f32⟩ : BufTy).Contents (Elt F) → (⟨S1024x768, .f32⟩ : BufTy).Contents (Elt F))
  :: StableHlo.unary main_arg4 main_v3 (broadcastInDim S1x768 ![1] bcast_S768_S1x768_1 : (⟨S768, .f32⟩ : BufTy).Contents (Elt F) → (⟨S1x768, .f32⟩ : BufTy).Contents (Elt F))
  :: StableHlo.unary main_v3 main_v4 (broadcastInDim S1024x768 ![0, 1] bcast_S1x768_S1024x768_0_1 : (⟨S1x768, .f32⟩ : BufTy).Contents (Elt F) → (⟨S1024x768, .f32⟩ : BufTy).Contents (Elt F))
  :: StableHlo.binary main_v2 main_v4 main_v5 (addf : (⟨S1024x768, .f32⟩ : BufTy).Contents (Elt F) → (⟨S1024x768, .f32⟩ : BufTy).Contents (Elt F) → (⟨S1024x768, .f32⟩ : BufTy).Contents (Elt F))
  :: StableHlo.unary main_arg3 main_v6 ((transpose S256x768 [1, 0] · transposes_S768x256_S256x768_1_0) : (⟨S768x256, .f32⟩ : BufTy).Contents (Elt F) → (⟨S256x768, .f32⟩ : BufTy).Contents (Elt F))
  :: StableHlo.binary main_v0 main_v6 main_v7 ((fun l r => Host.dotGeneral dot_S1024x256_S256x768_S1024x768_1_0_0_1_n_n none l r) : (⟨S1024x256, .f32⟩ : BufTy).Contents (Elt F) → (⟨S256x768, .f32⟩ : BufTy).Contents (Elt F) → (⟨S1024x768, .f32⟩ : BufTy).Contents (Elt F))
  :: StableHlo.unary main_arg5 main_v8 (broadcastInDim S1x768 ![1] bcast_S768_S1x768_1 : (⟨S768, .f32⟩ : BufTy).Contents (Elt F) → (⟨S1x768, .f32⟩ : BufTy).Contents (Elt F))
  :: StableHlo.unary main_v8 main_v9 (broadcastInDim S1024x768 ![0, 1] bcast_S1x768_S1024x768_0_1 : (⟨S1x768, .f32⟩ : BufTy).Contents (Elt F) → (⟨S1024x768, .f32⟩ : BufTy).Contents (Elt F))
  :: StableHlo.binary main_v7 main_v9 main_v10 (addf : (⟨S1024x768, .f32⟩ : BufTy).Contents (Elt F) → (⟨S1024x768, .f32⟩ : BufTy).Contents (Elt F) → (⟨S1024x768, .f32⟩ : BufTy).Contents (Elt F))
  :: StableHlo.unary main_v5 main_v11 ((extractStridedSlice S1024x256 ![0, 0] · slices_S1024x768_S1024x256_0_0) : (⟨S1024x768, .f32⟩ : BufTy).Contents (Elt F) → (⟨S1024x256, .f32⟩ : BufTy).Contents (Elt F))
  :: StableHlo.unary main_v5 main_v12 ((extractStridedSlice S1024x256 ![0, 256] · slices_S1024x768_S1024x256_0_256) : (⟨S1024x768, .f32⟩ : BufTy).Contents (Elt F) → (⟨S1024x256, .f32⟩ : BufTy).Contents (Elt F))
  :: StableHlo.unary main_v5 main_v13 ((extractStridedSlice S1024x256 ![0, 512] · slices_S1024x768_S1024x256_0_512) : (⟨S1024x768, .f32⟩ : BufTy).Contents (Elt F) → (⟨S1024x256, .f32⟩ : BufTy).Contents (Elt F))
  :: StableHlo.unary main_v10 main_v14 ((extractStridedSlice S1024x256 ![0, 0] · slices_S1024x768_S1024x256_0_0) : (⟨S1024x768, .f32⟩ : BufTy).Contents (Elt F) → (⟨S1024x256, .f32⟩ : BufTy).Contents (Elt F))
  :: StableHlo.unary main_v10 main_v15 ((extractStridedSlice S1024x256 ![0, 256] · slices_S1024x768_S1024x256_0_256) : (⟨S1024x768, .f32⟩ : BufTy).Contents (Elt F) → (⟨S1024x256, .f32⟩ : BufTy).Contents (Elt F))
  :: StableHlo.unary main_v10 main_v16 ((extractStridedSlice S1024x256 ![0, 512] · slices_S1024x768_S1024x256_0_512) : (⟨S1024x768, .f32⟩ : BufTy).Contents (Elt F) → (⟨S1024x256, .f32⟩ : BufTy).Contents (Elt F))
  :: StableHlo.binary main_v11 main_v14 main_v17 (addf : (⟨S1024x256, .f32⟩ : BufTy).Contents (Elt F) → (⟨S1024x256, .f32⟩ : BufTy).Contents (Elt F) → (⟨S1024x256, .f32⟩ : BufTy).Contents (Elt F))
  :: StableHlo.unary main_v17 main_v18 (Host.negf : (⟨S1024x256, .f32⟩ : BufTy).Contents (Elt F) → (⟨S1024x256, .f32⟩ : BufTy).Contents (Elt F))
  :: StableHlo.unary main_v18 main_v19 (Host.exp : (⟨S1024x256, .f32⟩ : BufTy).Contents (Elt F) → (⟨S1024x256, .f32⟩ : BufTy).Contents (Elt F))
  :: StableHlo.nullary main_cst (constant S_ .f32 0x3F800000#32)
  :: StableHlo.unary main_cst main_v20 (broadcastInDim S1024x256 ![] bcast_S_S1024x256 : (⟨S_, .f32⟩ : BufTy).Contents (Elt F) → (⟨S1024x256, .f32⟩ : BufTy).Contents (Elt F))
  :: StableHlo.binary main_v20 main_v19 main_v21 (addf : (⟨S1024x256, .f32⟩ : BufTy).Contents (Elt F) → (⟨S1024x256, .f32⟩ : BufTy).Contents (Elt F) → (⟨S1024x256, .f32⟩ : BufTy).Contents (Elt F))
  :: StableHlo.nullary main_cst_0 (constant S_ .f32 0x3F800000#32)
  :: StableHlo.unary main_cst_0 main_v22 (broadcastInDim S1024x256 ![] bcast_S_S1024x256 : (⟨S_, .f32⟩ : BufTy).Contents (Elt F) → (⟨S1024x256, .f32⟩ : BufTy).Contents (Elt F))
  :: StableHlo.binary main_v22 main_v21 main_v23 (Host.divf : (⟨S1024x256, .f32⟩ : BufTy).Contents (Elt F) → (⟨S1024x256, .f32⟩ : BufTy).Contents (Elt F) → (⟨S1024x256, .f32⟩ : BufTy).Contents (Elt F))
  :: StableHlo.binary main_v12 main_v15 main_v24 (addf : (⟨S1024x256, .f32⟩ : BufTy).Contents (Elt F) → (⟨S1024x256, .f32⟩ : BufTy).Contents (Elt F) → (⟨S1024x256, .f32⟩ : BufTy).Contents (Elt F))
  :: StableHlo.unary main_v24 main_v25 (Host.negf : (⟨S1024x256, .f32⟩ : BufTy).Contents (Elt F) → (⟨S1024x256, .f32⟩ : BufTy).Contents (Elt F))
  :: StableHlo.unary main_v25 main_v26 (Host.exp : (⟨S1024x256, .f32⟩ : BufTy).Contents (Elt F) → (⟨S1024x256, .f32⟩ : BufTy).Contents (Elt F))
  :: StableHlo.nullary main_cst_1 (constant S_ .f32 0x3F800000#32)
  :: StableHlo.unary main_cst_1 main_v27 (broadcastInDim S1024x256 ![] bcast_S_S1024x256 : (⟨S_, .f32⟩ : BufTy).Contents (Elt F) → (⟨S1024x256, .f32⟩ : BufTy).Contents (Elt F))
  :: StableHlo.binary main_v27 main_v26 main_v28 (addf : (⟨S1024x256, .f32⟩ : BufTy).Contents (Elt F) → (⟨S1024x256, .f32⟩ : BufTy).Contents (Elt F) → (⟨S1024x256, .f32⟩ : BufTy).Contents (Elt F))
  :: StableHlo.nullary main_cst_2 (constant S_ .f32 0x3F800000#32)
  :: StableHlo.unary main_cst_2 main_v29 (broadcastInDim S1024x256 ![] bcast_S_S1024x256 : (⟨S_, .f32⟩ : BufTy).Contents (Elt F) → (⟨S1024x256, .f32⟩ : BufTy).Contents (Elt F))
  :: StableHlo.binary main_v29 main_v28 main_v30 (Host.divf : (⟨S1024x256, .f32⟩ : BufTy).Contents (Elt F) → (⟨S1024x256, .f32⟩ : BufTy).Contents (Elt F) → (⟨S1024x256, .f32⟩ : BufTy).Contents (Elt F))
  :: StableHlo.binary main_v23 main_v16 main_v31 (mulf : (⟨S1024x256, .f32⟩ : BufTy).Contents (Elt F) → (⟨S1024x256, .f32⟩ : BufTy).Contents (Elt F) → (⟨S1024x256, .f32⟩ : BufTy).Contents (Elt F))
  :: StableHlo.binary main_v13 main_v31 main_v32 (addf : (⟨S1024x256, .f32⟩ : BufTy).Contents (Elt F) → (⟨S1024x256, .f32⟩ : BufTy).Contents (Elt F) → (⟨S1024x256, .f32⟩ : BufTy).Contents (Elt F))
  :: StableHlo.unary main_v32 main_v33 (Host.tanh : (⟨S1024x256, .f32⟩ : BufTy).Contents (Elt F) → (⟨S1024x256, .f32⟩ : BufTy).Contents (Elt F))
  :: StableHlo.nullary main_cst_3 (constant S_ .f32 0x3F800000#32)
  :: StableHlo.unary main_cst_3 main_v34 (broadcastInDim S1024x256 ![] bcast_S_S1024x256 : (⟨S_, .f32⟩ : BufTy).Contents (Elt F) → (⟨S1024x256, .f32⟩ : BufTy).Contents (Elt F))
  :: StableHlo.binary main_v34 main_v30 main_v35 (subf : (⟨S1024x256, .f32⟩ : BufTy).Contents (Elt F) → (⟨S1024x256, .f32⟩ : BufTy).Contents (Elt F) → (⟨S1024x256, .f32⟩ : BufTy).Contents (Elt F))
  :: StableHlo.binary main_v35 main_v33 main_v36 (mulf : (⟨S1024x256, .f32⟩ : BufTy).Contents (Elt F) → (⟨S1024x256, .f32⟩ : BufTy).Contents (Elt F) → (⟨S1024x256, .f32⟩ : BufTy).Contents (Elt F))
  :: StableHlo.binary main_v30 main_v0 main_v37 (mulf : (⟨S1024x256, .f32⟩ : BufTy).Contents (Elt F) → (⟨S1024x256, .f32⟩ : BufTy).Contents (Elt F) → (⟨S1024x256, .f32⟩ : BufTy).Contents (Elt F))
  :: StableHlo.binary main_v36 main_v37 main_v38 (addf : (⟨S1024x256, .f32⟩ : BufTy).Contents (Elt F) → (⟨S1024x256, .f32⟩ : BufTy).Contents (Elt F) → (⟨S1024x256, .f32⟩ : BufTy).Contents (Elt F))
  :: [] )

/-- The output projection: the output table transposed, the product, the bias broadcast twice, the sum, tanh. -/
abbrev ops3 : List (HloOp τ sig (Elt F)) :=
  [ StableHlo.unary main_arg6 main_v39 ((transpose S256x100000 [1, 0] · transposes_S100000x256_S256x100000_1_0) : (⟨S100000x256, .f32⟩ : BufTy).Contents (Elt F) → (⟨S256x100000, .f32⟩ : BufTy).Contents (Elt F)),
    StableHlo.binary main_v38 main_v39 main_v40 ((fun l r => Host.dotGeneral dot_S1024x256_S256x100000_S1024x100000_1_0_0_1_n_n none l r) : (⟨S1024x256, .f32⟩ : BufTy).Contents (Elt F) → (⟨S256x100000, .f32⟩ : BufTy).Contents (Elt F) → (⟨S1024x100000, .f32⟩ : BufTy).Contents (Elt F)),
    StableHlo.unary main_arg7 main_v41 (broadcastInDim S1x100000 ![1] bcast_S100000_S1x100000_1 : (⟨S100000, .f32⟩ : BufTy).Contents (Elt F) → (⟨S1x100000, .f32⟩ : BufTy).Contents (Elt F)),
    StableHlo.unary main_v41 main_v42 (broadcastInDim S1024x100000 ![0, 1] bcast_S1x100000_S1024x100000_0_1 : (⟨S1x100000, .f32⟩ : BufTy).Contents (Elt F) → (⟨S1024x100000, .f32⟩ : BufTy).Contents (Elt F)),
    StableHlo.binary main_v40 main_v42 main_v43 (addf : (⟨S1024x100000, .f32⟩ : BufTy).Contents (Elt F) → (⟨S1024x100000, .f32⟩ : BufTy).Contents (Elt F) → (⟨S1024x100000, .f32⟩ : BufTy).Contents (Elt F)),
    StableHlo.unary main_v43 main_v44 (Host.tanh : (⟨S1024x100000, .f32⟩ : BufTy).Contents (Elt F) → (⟨S1024x100000, .f32⟩ : BufTy).Contents (Elt F)) ]

/-- The whole line. -/
abbrev ops : List (HloOp τ sig (Elt F)) := ops0 ++ (ops1 ++ (ops2 ++ ops3))

/-! ## The program is that line -/

-- seventy-two sequenced steps: re-associating the sequence nests once per step
set_option maxRecDepth 4096 in
/-- @main is the straight line: the two functions' definitions unfolded at their calls and the records at their
    fields, both sides are one chain of steps once sequencing is re-associated. -/
theorem main_eq (c : Dev nD) : main (F := F) c = StableHlo.seq ops := by
  simp only [main, fn_take.body, fn_where.body, ops, ops0, ops1, ops2, ops3, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  StableHlo.reshape_bufs_sub ..
theorem ops1_sub : (ops1 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem ops2_sub : (ops2 : List (HloOp τ sig (Elt F))).Forall fun op => op.bufs ⊆ tcRefs τ sig :=
  ⟨StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩
theorem ops3_sub : (ops3 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.binary_bufs_sub .., StableHlo.unary_bufs_sub ..⟩
/-- Every operation touches TensorCore references only. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub, ops3_sub⟩⟩⟩

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
/-- Every operation determines its results. -/
theorem ops_fresh : ∀ op ∈ (ops : List (HloOp τ sig (Elt F))), op.fresh = ∅ :=
  List.forall_iff_forall_mem.mp
    (List.forall_append.mpr ⟨ops0_fresh, List.forall_append.mpr ⟨ops1_fresh, List.forall_append.mpr ⟨ops2_fresh, ops3_fresh⟩⟩⟩)

/-! ## The output projection, as a function -/

/-- The reference's output: `tanh (h · W_outᵀ + b_out)`, the bias a row repeated down the batch. -/
def refOut (h : FVec F S1024x256 .f32) (Wout : FVec F S100000x256 .f32) (bout : FVec F S100000 .f32) :
    FVec F S1024x100000 .f32 :=
  Host.tanh (addf
    (Host.dotGeneral dot_S1024x256_S256x100000_S1024x100000_1_0_0_1_n_n none h
      (transpose S256x100000 [1, 0] Wout transposes_S100000x256_S256x100000_1_0))
    (broadcastInDim S1024x100000 ![0, 1] bcast_S1x100000_S1024x100000_0_1
      (broadcastInDim S1x100000 ![1] bcast_S100000_S1x100000_1 bout)))

/-! ## What each stretch leaves, from an arbitrary valuation -/

/-- The first stretch leaves the hidden state's layer in `%0`. -/
theorem reshape_eq (W : Valuation τ sig (Elt F)) :
    (after (ops0 (F := F)) W (Proc.devRef .tc main_v0) : S1024x256.Idx → F .f32)
      = shapeCast S1024x256 (W (Proc.devRef .tc main_arg1)) shapeCasts_S1x1024x256_S1024x256 := by
  after_results_simp <;> rfl

/-- The lookup stretch leaves the looked-up columns in its result buffer: the shared function of the table and the
    indices (the two programs' records of dimension numbers have the same literal fields). -/
theorem lookup_eq (W : Valuation τ sig (Elt F)) :
    (after (ops1 (F := F)) W (Proc.devRef .tc main_v1) : S768x1024.Idx → F .f32)
      = Cert.KernelIdeal.HostChain.takeCols (W (Proc.devRef .tc main_arg2)) (W (Proc.devRef .tc main_arg0)) := by
  after_results_simp
  rfl

/-- The third stretch leaves the GRU cell's result in `%38`: the shared function of the reshaped hidden state, the
    looked-up columns, the hidden-to-hidden table and the two biases. -/
theorem cell_eq (W : Valuation τ sig (Elt F)) :
    (after (ops2 (F := F)) W (Proc.devRef .tc main_v38) : S1024x256.Idx → F .f32)
      = Cert.KernelIdeal.HostChain.gruCell (W (Proc.devRef .tc main_v0)) (W (Proc.devRef .tc main_v1))
          (W (Proc.devRef .tc main_arg3)) (W (Proc.devRef .tc main_arg4)) (W (Proc.devRef .tc main_arg5)) := by
  after_results_simp
  rfl

/-- The last stretch leaves the projection of `%38` in the result buffer. -/
theorem out_eq (W : Valuation τ sig (Elt F)) :
    (after (ops3 (F := F)) W (Proc.devRef .tc main_v44) : S1024x100000.Idx → F .f32)
      = refOut (W (Proc.devRef .tc main_v38)) (W (Proc.devRef .tc main_arg6)) (W (Proc.devRef .tc main_arg7)) := by
  after_results_simp
  rfl

/-- The first stretch writes `%0` only: the other arrays the later stretches read are as they were. -/
theorem pass0 (W : Valuation τ sig (Elt F)) :
    after (ops0 (F := F)) W (Proc.devRef .tc main_arg0) = W (Proc.devRef .tc main_arg0)
      ∧ after (ops0 (F := F)) W (Proc.devRef .tc main_arg2) = W (Proc.devRef .tc main_arg2)
      ∧ after (ops0 (F := F)) W (Proc.devRef .tc main_arg3) = W (Proc.devRef .tc main_arg3)
      ∧ after (ops0 (F := F)) W (Proc.devRef .tc main_arg4) = W (Proc.devRef .tc main_arg4)
      ∧ after (ops0 (F := F)) W (Proc.devRef .tc main_arg5) = W (Proc.devRef .tc main_arg5)
      ∧ after (ops0 (F := F)) W (Proc.devRef .tc main_arg6) = W (Proc.devRef .tc main_arg6)
      ∧ after (ops0 (F := F)) W (Proc.devRef .tc main_arg7) = W (Proc.devRef .tc main_arg7) := by
  refine ⟨?_, ?_, ?_, ?_, ?_, ?_, ?_⟩ <;> after_results_simp

/-- The lookup writes its own buffers only. -/
theorem pass1 (W : Valuation τ sig (Elt F)) :
    after (ops1 (F := F)) W (Proc.devRef .tc main_v0) = W (Proc.devRef .tc main_v0)
      ∧ after (ops1 (F := F)) W (Proc.devRef .tc main_arg3) = W (Proc.devRef .tc main_arg3)
      ∧ after (ops1 (F := F)) W (Proc.devRef .tc main_arg4) = W (Proc.devRef .tc main_arg4)
      ∧ after (ops1 (F := F)) W (Proc.devRef .tc main_arg5) = W (Proc.devRef .tc main_arg5)
      ∧ after (ops1 (F := F)) W (Proc.devRef .tc main_arg6) = W (Proc.devRef .tc main_arg6)
      ∧ after (ops1 (F := F)) W (Proc.devRef .tc main_arg7) = W (Proc.devRef .tc main_arg7) := by
  refine ⟨?_, ?_, ?_, ?_, ?_, ?_⟩ <;> after_results_simp

/-- The GRU cell leaves the output table and bias as they were. -/
theorem pass2 (W : Valuation τ sig (Elt F)) :
    after (ops2 (F := F)) W (Proc.devRef .tc main_arg6) = W (Proc.devRef .tc main_arg6)
      ∧ after (ops2 (F := F)) W (Proc.devRef .tc main_arg7) = W (Proc.devRef .tc main_arg7) := by
  refine ⟨?_, ?_⟩ <;> after_results_simp

/-! ## The whole line -/

/-- The result buffer after the whole line: the projection of the new hidden state, both as functions of the
    argument arrays — the four stretches' readings chained. -/
theorem result_eq (W : Valuation τ sig (Elt F)) :
    (after (ops (F := F)) W (Proc.devRef .tc main_v44) : S1024x100000.Idx → F .f32)
      = refOut (Cert.KernelIdeal.HostChain.hnew (W (Proc.devRef .tc main_arg0)) (W (Proc.devRef .tc main_arg1))
            (W (Proc.devRef .tc main_arg2)) (W (Proc.devRef .tc main_arg3)) (W (Proc.devRef .tc main_arg4))
            (W (Proc.devRef .tc main_arg5)))
          (W (Proc.devRef .tc main_arg6)) (W (Proc.devRef .tc main_arg7)) := by
  show after (ops0 ++ (ops1 ++ (ops2 ++ ops3))) W _ = _
  rw [after_append, after_append, after_append, out_eq, cell_eq, (pass2 _).1, (pass2 _).2, lookup_eq,
    (pass1 _).1, (pass1 _).2.1, (pass1 _).2.2.1, (pass1 _).2.2.2.1, (pass1 _).2.2.2.2.1, (pass1 _).2.2.2.2.2,
    reshape_eq, (pass0 _).1, (pass0 _).2.1, (pass0 _).2.2.1, (pass0 _).2.2.2.1, (pass0 _).2.2.2.2.1,
    (pass0 _).2.2.2.2.2.1, (pass0 _).2.2.2.2.2.2]
  rfl

/-- No operation of the line writes an argument array. -/
theorem args_eq (W : Valuation τ sig (Elt F)) :
    after (ops (F := F)) W (Proc.devRef .tc main_arg0) = W (Proc.devRef .tc main_arg0)
      ∧ after (ops (F := F)) W (Proc.devRef .tc main_arg1) = W (Proc.devRef .tc main_arg1)
      ∧ after (ops (F := F)) W (Proc.devRef .tc main_arg2) = W (Proc.devRef .tc main_arg2)
      ∧ after (ops (F := F)) W (Proc.devRef .tc main_arg3) = W (Proc.devRef .tc main_arg3)
      ∧ after (ops (F := F)) W (Proc.devRef .tc main_arg4) = W (Proc.devRef .tc main_arg4)
      ∧ after (ops (F := F)) W (Proc.devRef .tc main_arg5) = W (Proc.devRef .tc main_arg5)
      ∧ after (ops (F := F)) W (Proc.devRef .tc main_arg6) = W (Proc.devRef .tc main_arg6)
      ∧ after (ops (F := F)) W (Proc.devRef .tc main_arg7) = W (Proc.devRef .tc main_arg7) := by
  simp only [ops, after_append]
  refine ⟨?_, ?_, ?_, ?_, ?_, ?_, ?_, ?_⟩ <;> after_results_simp

/-! ## The run -/

/-- On the device, for any float values, from any memory with zero counters: every weakly fair execution of
    @main terminates with the result array at the projection of the new hidden state — both the shared functions
    of the arguments' launch contents — and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
          = refOut (Cert.KernelIdeal.HostChain.hnew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v44).trans (result_eq (launchContents m c)),
      (h c main_arg0).trans (args_eq (launchContents m c)).1,
      (h c main_arg1).trans (args_eq (launchContents m c)).2.1,
      (h c main_arg2).trans (args_eq (launchContents m c)).2.2.1,
      (h c main_arg3).trans (args_eq (launchContents m c)).2.2.2.1,
      (h c main_arg4).trans (args_eq (launchContents m c)).2.2.2.2.1,
      (h c main_arg5).trans (args_eq (launchContents m c)).2.2.2.2.2.1,
      (h c main_arg6).trans (args_eq (launchContents m c)).2.2.2.2.2.2.1,
      (h c main_arg7).trans (args_eq (launchContents m c)).2.2.2.2.2.2.2⟩)
    (run_seq scopedRefs_eq scopedSems_eq defs main (fun _ => ops) main_eq (fun _ => ops_sub) m ρ (fun _ => ops_fresh))

end Cert.ReferenceIdeal.RefRun

end
-- ==== Proof.RefValue.lean ====
/-
  The reference's output projection is `OutProj.proj`, entry by entry over the extended reals: the host's
  product of `h'` with the transposed output table contracts `h'`'s second axis with the transposed table's
  first, so entry `(a, c)` sums `h'[a, k] * W_out[c, k]` over `k`; the bias, made a row and repeated down the batch,
  contributes `b_out[c]`; and the host's tanh is the same function of an extended real as the kernel's.
-/
import proofs.«141771_j678604833556_2_alg».proof.Proof.RefRun
import proofs.«141771_j678604833556_2_alg».proof.Proof.OutProj
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.RefRun
open Idealize.ShloMosaic Idealize.ShloMosaic.ValueIdx

/-- The host product's dimension numbers: result [1024, 100000] from [1024, 256] and [256, 100000], the left
    operand's second axis contracted with the right operand's first. -/
abbrev D : DotDims S1024x256 S256x100000 S1024x100000 := dot_S1024x256_S256x100000_S1024x100000_1_0_0_1_n_n

/-- The contraction index is its one coordinate, below 256. -/
abbrev contr : D.contr.Idx ≃ Fin 256 := contrEquiv1 D 256 rfl rfl

theorem lhsIdx_eq (a : Fin 1024) (c : Fin 100000) (k : Fin 256) :
    D.lhsIdx (ix2 a c) (contr.symm k) = ix2 a k :=
  funext fun ax => match ax with
    | ⟨0, _⟩ => Fin.ext rfl
    | ⟨1, _⟩ => Fin.ext ((D.lhsIdx_val_of_single (cl := 1) rfl (ix2 a c) (contr.symm k)).trans (contrEquiv1_symm_val D 256 rfl rfl k))

theorem rhsIdx_eq (a : Fin 1024) (c : Fin 100000) (k : Fin 256) :
    D.rhsIdx (ix2 a c) (contr.symm k) = ix2 k c :=
  funext fun ax => match ax with
    | ⟨0, _⟩ => Fin.ext ((D.rhsIdx_val_of_single (cr := 0) rfl (ix2 a c) (contr.symm k)).trans (contrEquiv1_symm_val D 256 rfl rfl k))
    | ⟨1, _⟩ => Fin.ext rfl

/-- The bias, made a row and repeated down the batch, reads its entry `c` in every row. -/
theorem bias_apply (bout : FVec Ideal S100000 .f32) (a : Fin 1024) (c : Fin 100000) :
    broadcastInDim S1024x100000 ![0, 1] Facts₀.bcast_S1x100000_S1024x100000_0_1
        (broadcastInDim S1x100000 ![1] Facts₀.bcast_S100000_S1x100000_1 bout) (ix2 a c) = bout (ix1 c) := by
  rw [broadcastInDim_apply _ _ _ (ix2 a c) (ix2 (0 : Fin 1) c) (fun ax => match ax with
      | ⟨0, _⟩ => rfl
      | ⟨1, _⟩ => by
        show c.val = if (100000 : ℕ) = 1 then 0 else c.val
        rw [if_neg (by decide)]),
    broadcastInDim_apply _ _ _ (ix2 (0 : Fin 1) c) (ix1 c) (fun ax => match ax with
      | ⟨0, _⟩ => by
        show c.val = if (100000 : ℕ) = 1 then 0 else c.val
        rw [if_neg (by decide)])]

/-- The reference's output is the projection. -/
theorem refOut_eq (h : FVec Ideal S1024x256 .f32) (Wout : FVec Ideal S100000x256 .f32) (bout : FVec Ideal S100000 .f32) :
    refOut (F := Ideal) h Wout bout = Cert.OutProj.proj h Wout bout := by
  funext i
  obtain ⟨a, c, rfl⟩ : ∃ (a : Fin 1024) (c : Fin 100000), i = ix2 a c := ⟨i 0, i 1, eq_ix2 i⟩
  rw [Cert.OutProj.proj_apply]
  unfold refOut
  show Ideal.tanh (FloatOps.dotGeneral (F := Ideal) D none .single h (transpose S256x100000 [1, 0] Wout _) (ix2 a c)
    + broadcastInDim S1024x100000 ![0, 1] _ (broadcastInDim S1x100000 ![1] _ bout) (ix2 a c)) = _
  rw [Ideal.dotGeneral_apply, bias_apply, ← Equiv.sum_comp contr.symm]
  simp only [lhsIdx_eq, rhsIdx_eq]
  refine congrArg Ideal.tanh (congrArg (· + bout (ix1 c)) (Finset.sum_congr rfl fun k _ => ?_))
  exact congrArg (h (ix2 a k) * ·) (transpose_ix2_apply Wout _ k c)

end Cert.ReferenceIdeal.RefValue

end
-- ==== Proof.lean ====
/-
  The certificate of a GRU step followed by an output projection, `logit = tanh (h' · W_outᵀ + b_out)` with
  `h'` the new hidden state of a batch of 1024 items over a vocabulary of 100000. The kernel's program and the
  reference compute `h'` by the same host operations (embedding lookup, GRU cell); then the kernel multiplies by
  the output table 4224 columns at a time on a grid of 24 points — the last block overhangs the table's end and
  only its 2848 columns inside the result are written back — while the reference multiplies in one piece.

  Over the extended reals an entry `(a, c)` of either result is `tanh (∑ₖ h'[a, k] * W_out[c, k] + b_out[c])`: a
  column of a block depends on its own table row and bias entry alone, so tiling the columns changes nothing, and
  no algebraic law beyond reading the two products as the same sum is used (no finiteness is needed).

  The frames: the word-level kernel's by forgetting every window (`KernelFrame`: nothing is said of the result);
  the idealized kernel's from its value run (`KRun`, `KFinal`); the reference's from its run (`RefRun`).
  Nothing was rewritten by the idealization, so `preserves` is trivial.
-/
import proofs.«141771_j678604833556_2_alg».proof.Defs
import proofs.«141771_j678604833556_2_alg».proof.Proof.Gen.Kernel
import proofs.«141771_j678604833556_2_alg».proof.Proof.Gen.KernelIdeal
import proofs.«141771_j678604833556_2_alg».proof.Proof.Gen.ReferenceIdeal
import proofs.«141771_j678604833556_2_alg».proof.Proof.Gen.Pre_finite_inputs
import proofs.«141771_j678604833556_2_alg».proof.Proof.KernelFrame
import proofs.«141771_j678604833556_2_alg».proof.Proof.KFinal
import proofs.«141771_j678604833556_2_alg».proof.Proof.RefValue

noncomputable section

namespace Cert.Proof

open Idealize.ShloMosaic Idealize.ShloMosaic.TcCoe Idealize.SL.Sem

/-- The word-level kernel's program runs and leaves its arguments as they were. -/
theorem frame_k : Cert.frame_Kernel := fun m ρ _ => Cert.Kernel.HandFrame.frame (F := Bits) m ρ

/-- So does the idealized kernel's. -/
theorem frame_ki : Cert.frame_KernelIdeal := fun m ρ _ => Cert.KernelIdeal.Run.frame m ρ

/-- So does the reference: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the projection of the same new hidden state, output table and bias; the second
    result, the hidden state handed back, is the argument itself in both. -/
theorem algebraic : Cert.algebraic_KernelIdeal_ReferenceIdeal := by
  intro m ρ m' ρ' _ hagree
  refine ⟨fun c => Cert.OutProj.proj
      (Cert.KernelIdeal.HostChain.hnew (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => m ((c.tc : Thread Cert.KernelIdeal.nD Cert.KernelIdeal.τ).loc Cert.KernelIdeal.main_arg1), ?_, ?_⟩
  · exact (θ_run Cert.KernelIdeal.defs _ _).mono (fun _ h c => ⟨(h c).1, (h c).2.2.1, (h c).2⟩)
      (Cert.KernelIdeal.Final.run m ρ)
  · refine (θ_run Cert.ReferenceIdeal.defs _ _).mono (fun _ h c => ⟨?_, (h c).2.2.1.trans (hagree c).2.1, (h c).2⟩)
      (Cert.ReferenceIdeal.RefRun.run (F := Ideal) m' ρ')
    obtain ⟨h0, h1, h2, h3, h4, h5, h6, h7⟩ := hagree c
    rw [(h c).1, Cert.ReferenceIdeal.RefValue.refOut_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
